-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v225)) (v1 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_v230) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg13 : FVec F S3x128 .f32) (main_v33 : IVec S_ 1) : IVec S_ 1 :=
  let main_v34 : FVec F S3x128 .f32 := Host.absf main_arg13
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg10 : FVec F S3x128x128 .f32) (main_arg11 : FVec F S3x128 .f32) (main_arg12 : FVec F S3x128x128 .f32) (main_arg13 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg10
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg11
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg12
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg13 main_v33

def fn {F : FTy → Type} [FloatOps F] (main_arg0 : FVec F S100000x128 .f32) (main_arg1 : FVec F S100000x128 .f32) (main_arg2 : IVec S800000 32) (main_arg3 : IVec S800000 32) (main_arg4 : IVec S800000 32) (main_arg5 : IVec S800000 32) (main_arg6 : IVec S800000 32) (main_arg7 : IVec S800000 32) (main_arg8 : FVec F S3x128x128 .f32) (main_arg9 : FVec F S3x128 .f32) (main_arg10 : FVec F S3x128x128 .f32) (main_arg11 : FVec F S3x128 .f32) (main_arg12 : FVec F S3x128x128 .f32) (main_arg13 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3x128x128 .f32 := Host.absf main_arg8
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg9
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg10 main_arg11 main_arg12 main_arg13 main_v13 main_v16
-- ==== Kernel.lean ====
abbrev S100000x128 : Shape := ⟨2, ![100000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 299
  | .vmem => 48
  | .smem => 0
  | _ => 0

abbrev hbmTy0_0 (i : Nat) : BufTy := match i % 128 with
  | 0 => ⟨S100000x128, .f32⟩
  | 1 => ⟨S100000x128, .f32⟩
  | 2 => ⟨S800000, .i32⟩
  | 3 => ⟨S800000, .i32⟩
  | 4 => ⟨S800000, .i32⟩
  | 5 => ⟨S800000, .i32⟩
  | 6 => ⟨S800000, .i32⟩
  | 7 => ⟨S800000, .i32⟩
  | 8 => ⟨S3x128x128, .f32⟩
  | 9 => ⟨S3x128, .f32⟩
  | 10 => ⟨S3x128x128, .f32⟩
  | 11 => ⟨S3x128, .f32⟩
  | 12 => ⟨S3x128x128, .f32⟩
  | 13 => ⟨S3x128, .f32⟩
  | 14 => ⟨S_, .f32⟩
  | 15 => ⟨S800000, .f32⟩
  | 16 => ⟨S_, .f32⟩
  | 17 => ⟨S100000, .f32⟩
  | 18 => ⟨S800000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S800000, .f32⟩
  | 34 => ⟨S_, .f32⟩
  | 35 => ⟨S100000, .f32⟩
  | 36 => ⟨S800000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S800000x1, .i32⟩
  | 45 => ⟨S100000, .f32⟩
  | 46 => ⟨S_, .f32⟩
  | 47 => ⟨S_, .f32⟩
  | 48 => ⟨S100000, .f32⟩
  | 49 => ⟨S100000, .f32⟩
  | 50 => ⟨S_, .f32⟩
  | 51 => ⟨S800000, .f32⟩
  | 52 => ⟨S_, .f32⟩
  | 53 => ⟨S100000, .f32⟩
  | 54 => ⟨S800000x1, .i32⟩
  | 55 => ⟨S100000, .f32⟩
  | 56 => ⟨S_, .f32⟩
  | 57 => ⟨S_, .f32⟩
  | 58 => ⟨S100000, .f32⟩
  | 59 => ⟨S100000, .f32⟩
  | 60 => ⟨S_, .f32⟩
  | 61 => ⟨S100000, .f32⟩
  | 62 => ⟨S800000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S100000x128, .f32⟩
  | 83 => ⟨S800000x1, .i32⟩
  | 84 => ⟨S100000x128, .f32⟩
  | 85 => ⟨S100000, .f32⟩
  | 86 => ⟨S100000x1, .f32⟩
  | 87 => ⟨S100000x128, .f32⟩
  | 88 => ⟨S100000x128, .f32⟩
  | 89 => ⟨S100000, .f32⟩
  | 90 => ⟨S100000x1, .f32⟩
  | 91 => ⟨S100000x128, .f32⟩
  | 92 => ⟨S100000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S100000x128, .f32⟩
  | 104 => ⟨S800000x1, .i32⟩
  | 105 => ⟨S100000x128, .f32⟩
  | 106 => ⟨S100000, .f32⟩
  | 107 => ⟨S100000x1, .f32⟩
  | 108 => ⟨S100000x128, .f32⟩
  | 109 => ⟨S100000x128, .f32⟩
  | 110 => ⟨S100000, .f32⟩
  | 111 => ⟨S100000x1, .f32⟩
  | 112 => ⟨S100000x128, .f32⟩
  | 113 => ⟨S100000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S100000x128, .f32⟩
  | 125 => ⟨S800000x1, .i32⟩
  | 126 => ⟨S100000x128, .f32⟩
  | 127 => ⟨S100000, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S100000x128, .f32⟩
  | 12 => ⟨S1x128x128, .f32⟩
  | 13 => ⟨S128x128, .f32⟩
  | 14 => ⟨S1x128, .f32⟩
  | 15 => ⟨S128, .f32⟩
  | 16 => ⟨S100000x128, .f32⟩
  | 17 => ⟨S100000, .f32⟩
  | 18 => ⟨S100000x1, .f32⟩
  | 19 => ⟨S100000x128, .f32⟩
  | 20 => ⟨S100000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S100000x128, .f32⟩
  | 32 => ⟨S800000x1, .i32⟩
  | 33 => ⟨S100000x128, .f32⟩
  | 34 => ⟨S100000, .f32⟩
  | 35 => ⟨S100000x1, .f32⟩
  | 36 => ⟨S100000x128, .f32⟩
  | 37 => ⟨S100000x128, .f32⟩
  | 38 => ⟨S100000, .f32⟩
  | 39 => ⟨S100000x1, .f32⟩
  | 40 => ⟨S100000x128, .f32⟩
  | 41 => ⟨S100000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S100000x128, .f32⟩
  | 53 => ⟨S800000x1, .i32⟩
  | 54 => ⟨S100000x128, .f32⟩
  | 55 => ⟨S100000, .f32⟩
  | 56 => ⟨S100000x1, .f32⟩
  | 57 => ⟨S100000x128, .f32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S100000x128, .f32⟩
  | 74 => ⟨S800000x1, .i32⟩
  | 75 => ⟨S100000x128, .f32⟩
  | 76 => ⟨S100000, .f32⟩
  | 77 => ⟨S100000x1, .f32⟩
  | 78 => ⟨S100000x128, .f32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S100000x128, .f32⟩
  | 89 => ⟨S1x128x128, .f32⟩
  | 90 => ⟨S128x128, .f32⟩
  | 91 => ⟨S1x128, .f32⟩
  | 92 => ⟨S128, .f32⟩
  | 93 => ⟨S100000x128, .f32⟩
  | 94 => ⟨S100000, .f32⟩
  | 95 => ⟨S100000x1, .f32⟩
  | 96 => ⟨S100000x128, .f32⟩
  | 97 => ⟨S100000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S100000x128, .f32⟩
  | 109 => ⟨S800000x1, .i32⟩
  | 110 => ⟨S100000x128, .f32⟩
  | 111 => ⟨S100000, .f32⟩
  | 112 => ⟨S100000x1, .f32⟩
  | 113 => ⟨S100000x128, .f32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S100000x128, .f32⟩

abbrev hbmTy0_2 (i : Nat) : BufTy := match i % 128 with
  | 0 => ⟨S_, .f32⟩
  | 1 => ⟨S100000x128, .f32⟩
  | 2 => ⟨S800000x1, .i32⟩
  | 3 => ⟨S100000x128, .f32⟩
  | 4 => ⟨S100000, .f32⟩
  | 5 => ⟨S100000x1, .f32⟩
  | 6 => ⟨S100000x128, .f32⟩
  | 7 => ⟨S100000x128, .f32⟩
  | 8 => ⟨S100000, .f32⟩
  | 9 => ⟨S100000x1, .f32⟩
  | 10 => ⟨S100000x128, .f32⟩
  | 11 => ⟨S100000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S100000x128, .f32⟩
  | 23 => ⟨S800000x1, .i32⟩
  | 24 => ⟨S100000x128, .f32⟩
  | 25 => ⟨S100000, .f32⟩
  | 26 => ⟨S100000x1, .f32⟩
  | 27 => ⟨S100000x128, .f32⟩
  | 28 => ⟨S100000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S128, .f32⟩
  | 37 => ⟨S100000x128, .f32⟩
  | 38 => ⟨S1x128x128, .f32⟩
  | 39 => ⟨S128x128, .f32⟩
  | 40 => ⟨S1x128, .f32⟩
  | 41 => ⟨S128, .f32⟩
  | 42 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_cst_5 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_v13 : Ref sig .tc := ⟨.hbm, 41, rfl⟩
abbrev main_cst_7 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v17 : Ref sig .tc := ⟨.hbm, 49, rfl⟩
abbrev main_cst_9 : Ref sig .tc := ⟨.hbm, 50, rfl⟩
abbrev main_v18 : Ref sig .tc := ⟨.hbm, 51, rfl⟩
abbrev main_cst_10 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_11 : Ref sig .tc := ⟨.hbm, 56, rfl⟩
abbrev main_call4_v0 : Ref sig .tc := ⟨.hbm, 57, rfl⟩
abbrev main_call4_v1 : Ref sig .tc := ⟨.hbm, 58, rfl⟩
abbrev main_v22 : Ref sig .tc := ⟨.hbm, 59, rfl⟩
abbrev main_cst_12 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_13 : Ref sig .tc := ⟨.hbm, 64, rfl⟩
abbrev main_call5_v0 : Ref sig .tc := ⟨.hbm, 65, rfl⟩
abbrev main_call5_v1 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c : Ref sig .tc := ⟨.hbm, 72, rfl⟩
abbrev main_v31 : Ref sig .tc := ⟨.hbm, 73, rfl⟩
abbrev main_v32 : Ref sig .tc := ⟨.hbm, 74, rfl⟩
abbrev main_c_14 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_15 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_16 : Ref sig .tc := ⟨.hbm, 93, rfl⟩
abbrev main_v49 : Ref sig .tc := ⟨.hbm, 94, rfl⟩
abbrev main_v50 : Ref sig .tc := ⟨.hbm, 95, rfl⟩
abbrev main_c_17 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_18 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_19 : Ref sig .tc := ⟨.hbm, 114, rfl⟩
abbrev main_v67 : Ref sig .tc := ⟨.hbm, 115, rfl⟩
abbrev main_v68 : Ref sig .tc := ⟨.hbm, 116, rfl⟩
abbrev main_c_20 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_21 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_22 : Ref sig .tc := ⟨.hbm, 149, rfl⟩
abbrev main_v99 : Ref sig .tc := ⟨.hbm, 150, rfl⟩
abbrev main_v100 : Ref sig .tc := ⟨.hbm, 151, rfl⟩
abbrev main_c_23 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_24 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_25 : Ref sig .tc := ⟨.hbm, 170, rfl⟩
abbrev main_v117 : Ref sig .tc := ⟨.hbm, 171, rfl⟩
abbrev main_v118 : Ref sig .tc := ⟨.hbm, 172, rfl⟩
abbrev main_c_26 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_27 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_28 : Ref sig .tc := ⟨.hbm, 191, rfl⟩
abbrev main_v135 : Ref sig .tc := ⟨.hbm, 192, rfl⟩
abbrev main_v136 : Ref sig .tc := ⟨.hbm, 193, rfl⟩
abbrev main_c_29 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_30 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_31 : Ref sig .tc := ⟨.hbm, 226, rfl⟩
abbrev main_v167 : Ref sig .tc := ⟨.hbm, 227, rfl⟩
abbrev main_v168 : Ref sig .tc := ⟨.hbm, 228, rfl⟩
abbrev main_c_32 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_33 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_c_34 : Ref sig .tc := ⟨.hbm, 247, rfl⟩
abbrev main_v185 : Ref sig .tc := ⟨.hbm, 248, rfl⟩
abbrev main_v186 : Ref sig .tc := ⟨.hbm, 249, rfl⟩
abbrev main_c_35 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_36 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_c_37 : Ref sig .tc := ⟨.hbm, 268, rfl⟩
abbrev main_v203 : Ref sig .tc := ⟨.hbm, 269, rfl⟩
abbrev main_v204 : Ref sig .tc := ⟨.hbm, 270, rfl⟩
abbrev main_c_38 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_cst_39 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_2_0_0 : S3x128x128.Slices ![2, 0, 0] S1x128x128
  slices_S3x128_S1x128_2_0 : S3x128.Slices ![2, 0] S1x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v84) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v88) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v80) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v91) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v93) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v94) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v112) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v150) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v152) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v130) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v154) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v156) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v157) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v148) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v159) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v161) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v162) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v180) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v218) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v220) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v198) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v222) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v224) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v225) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v216) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v227) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v229) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v230) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S800000 : Shape := ⟨1, ![800000]⟩
abbrev S3x128x128 : Shape := ⟨3, ![3, 128, 128]⟩
abbrev S3x128 : Shape := ⟨2, ![3, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩

abbrev nBuf : Space → Nat
  | .hbm => 452
  | .vmem => 0
  | .smem => 0
  | _ => 0

abbrev hbmTy0_0 (i : Nat) : BufTy := match i % 128 with
  | 0 => ⟨S100000x128, .f32⟩
  | 1 => ⟨S100000x128, .f32⟩
  | 2 => ⟨S800000, .i32⟩
  | 3 => ⟨S800000, .i32⟩
  | 4 => ⟨S800000, .i32⟩
  | 5 => ⟨S800000, .i32⟩
  | 6 => ⟨S800000, .i32⟩
  | 7 => ⟨S800000, .i32⟩
  | 8 => ⟨S3x128x128, .f32⟩
  | 9 => ⟨S3x128, .f32⟩
  | 10 => ⟨S3x128x128, .f32⟩
  | 11 => ⟨S3x128, .f32⟩
  | 12 => ⟨S3x128x128, .f32⟩
  | 13 => ⟨S3x128, .f32⟩
  | 14 => ⟨S1x128x128, .f32⟩
  | 15 => ⟨S128x128, .f32⟩
  | 16 => ⟨S1x128, .f32⟩
  | 17 => ⟨S128, .f32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S100000, .f32⟩
  | 30 => ⟨S800000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S100000x128, .f32⟩
  | 51 => ⟨S800000x1, .i32⟩
  | 52 => ⟨S100000x128, .f32⟩
  | 53 => ⟨S100000, .f32⟩
  | 54 => ⟨S100000x1, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S1x128x128, .f32⟩
  | 62 => ⟨S128x128, .f32⟩
  | 63 => ⟨S1x128, .f32⟩
  | 64 => ⟨S128, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S100000, .f32⟩
  | 77 => ⟨S800000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S100000x128, .f32⟩
  | 98 => ⟨S800000x1, .i32⟩
  | 99 => ⟨S100000x128, .f32⟩
  | 100 => ⟨S100000, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128x128, .f32⟩
  | 109 => ⟨S128x128, .f32⟩
  | 110 => ⟨S1x128, .f32⟩
  | 111 => ⟨S128, .f32⟩
  | 112 => ⟨S_, .f32⟩
  | 113 => ⟨S800000, .f32⟩
  | 114 => ⟨S_, .f32⟩
  | 115 => ⟨S100000, .f32⟩
  | 116 => ⟨S800000x1, .i32⟩
  | 117 => ⟨S100000, .f32⟩
  | 118 => ⟨S_, .f32⟩
  | 119 => ⟨S_, .f32⟩
  | 120 => ⟨S100000, .f32⟩
  | 121 => ⟨S100000, .f32⟩
  | 122 => ⟨S_, .f32⟩
  | 123 => ⟨S100000, .f32⟩
  | 124 => ⟨S800000x1, .i32⟩
  | 125 => ⟨S100000, .f32⟩
  | 126 => ⟨S_, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S100000x128, .f32⟩
  | 17 => ⟨S800000x1, .i32⟩
  | 18 => ⟨S100000x128, .f32⟩
  | 19 => ⟨S100000, .f32⟩
  | 20 => ⟨S100000x1, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S1x128x128, .f32⟩
  | 35 => ⟨S128x128, .f32⟩
  | 36 => ⟨S1x128, .f32⟩
  | 37 => ⟨S128, .f32⟩
  | 38 => ⟨S_, .f32⟩
  | 39 => ⟨S800000, .f32⟩
  | 40 => ⟨S_, .f32⟩
  | 41 => ⟨S100000, .f32⟩
  | 42 => ⟨S800000x1, .i32⟩
  | 43 => ⟨S100000, .f32⟩
  | 44 => ⟨S_, .f32⟩
  | 45 => ⟨S_, .f32⟩
  | 46 => ⟨S100000, .f32⟩
  | 47 => ⟨S100000, .f32⟩
  | 48 => ⟨S_, .f32⟩
  | 49 => ⟨S100000, .f32⟩
  | 50 => ⟨S800000x1, .i32⟩
  | 51 => ⟨S100000, .f32⟩
  | 52 => ⟨S_, .f32⟩
  | 53 => ⟨S_, .f32⟩
  | 54 => ⟨S100000, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .f32⟩
  | 70 => ⟨S100000x128, .f32⟩
  | 71 => ⟨S800000x1, .i32⟩
  | 72 => ⟨S100000x128, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128x128, .f32⟩
  | 82 => ⟨S128x128, .f32⟩
  | 83 => ⟨S1x128, .f32⟩
  | 84 => ⟨S128, .f32⟩
  | 85 => ⟨S_, .f32⟩
  | 86 => ⟨S800000, .f32⟩
  | 87 => ⟨S_, .f32⟩
  | 88 => ⟨S100000, .f32⟩
  | 89 => ⟨S800000x1, .i32⟩
  | 90 => ⟨S100000, .f32⟩
  | 91 => ⟨S_, .f32⟩
  | 92 => ⟨S_, .f32⟩
  | 93 => ⟨S100000, .f32⟩
  | 94 => ⟨S100000, .f32⟩
  | 95 => ⟨S_, .f32⟩
  | 96 => ⟨S100000, .f32⟩
  | 97 => ⟨S800000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S100000x128, .f32⟩
  | 118 => ⟨S800000x1, .i32⟩
  | 119 => ⟨S100000x128, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128x128, .f32⟩
  | 1 => ⟨S128x128, .f32⟩
  | 2 => ⟨S1x128, .f32⟩
  | 3 => ⟨S128, .f32⟩
  | 4 => ⟨S_, .f32⟩
  | 5 => ⟨S800000, .f32⟩
  | 6 => ⟨S_, .f32⟩
  | 7 => ⟨S100000, .f32⟩
  | 8 => ⟨S800000x1, .i32⟩
  | 9 => ⟨S100000, .f32⟩
  | 10 => ⟨S_, .f32⟩
  | 11 => ⟨S_, .f32⟩
  | 12 => ⟨S100000, .f32⟩
  | 13 => ⟨S100000, .f32⟩
  | 14 => ⟨S_, .f32⟩
  | 15 => ⟨S100000, .f32⟩
  | 16 => ⟨S800000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S100000x128, .f32⟩
  | 37 => ⟨S800000x1, .i32⟩
  | 38 => ⟨S100000x128, .f32⟩
  | 39 => ⟨S100000, .f32⟩
  | 40 => ⟨S100000x1, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S1x128x128, .f32⟩
  | 55 => ⟨S128x128, .f32⟩
  | 56 => ⟨S1x128, .f32⟩
  | 57 => ⟨S128, .f32⟩
  | 58 => ⟨S_, .f32⟩
  | 59 => ⟨S800000, .f32⟩
  | 60 => ⟨S_, .f32⟩
  | 61 => ⟨S100000, .f32⟩
  | 62 => ⟨S800000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S_, .f32⟩
  | 69 => ⟨S100000, .f32⟩
  | 70 => ⟨S800000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S100000x128, .f32⟩
  | 91 => ⟨S800000x1, .i32⟩
  | 92 => ⟨S100000x128, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S_, .f32⟩
  | 106 => ⟨S800000, .f32⟩
  | 107 => ⟨S_, .f32⟩
  | 108 => ⟨S100000, .f32⟩
  | 109 => ⟨S800000x1, .i32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S100000, .f32⟩
  | 117 => ⟨S800000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S_, .i32⟩
  | _ => ⟨S100000x128, .f32⟩

abbrev hbmTy0_3 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S100000x128, .f32⟩
  | 10 => ⟨S800000x1, .i32⟩
  | 11 => ⟨S100000x128, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128x128, .f32⟩
  | 21 => ⟨S128x128, .f32⟩
  | 22 => ⟨S1x128, .f32⟩
  | 23 => ⟨S128, .f32⟩
  | 24 => ⟨S_, .f32⟩
  | 25 => ⟨S800000, .f32⟩
  | 26 => ⟨S_, .f32⟩
  | 27 => ⟨S100000, .f32⟩
  | 28 => ⟨S800000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S800000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S100000x128, .f32⟩
  | 57 => ⟨S800000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_call3_v0 : Ref sig .tc := ⟨.hbm, 80, rfl⟩
abbrev main_call3_v1 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_c_12 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_call4_v0 : Ref sig .tc := ⟨.hbm, 119, rfl⟩
abbrev main_call4_v1 : Ref sig .tc := ⟨.hbm, 120, rfl⟩
abbrev main_v78 : Ref sig .tc := ⟨.hbm, 121, rfl⟩
abbrev main_cst_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_18 : Ref sig .tc := ⟨.hbm, 126, rfl⟩
abbrev main_call5_v0 : Ref sig .tc := ⟨.hbm, 127, rfl⟩
abbrev main_call5_v1 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_19 : Ref sig .tc := ⟨.hbm, 134, rfl⟩
abbrev main_v87 : Ref sig .tc := ⟨.hbm, 135, rfl⟩
abbrev main_v88 : Ref sig .tc := ⟨.hbm, 136, rfl⟩
abbrev main_c_20 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_21 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call6_cst : Ref sig .tc := ⟨.hbm, 156, rfl⟩
abbrev main_call6_v0 : Ref sig .tc := ⟨.hbm, 157, rfl⟩
abbrev main_v106 : Ref sig .tc := ⟨.hbm, 158, rfl⟩
abbrev main_call7_cst : Ref sig .tc := ⟨.hbm, 159, rfl⟩
abbrev main_call7_v0 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_22 : Ref sig .tc := ⟨.hbm, 166, rfl⟩
abbrev main_v112 : Ref sig .tc := ⟨.hbm, 167, rfl⟩
abbrev main_cst_23 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_24 : Ref sig .tc := ⟨.hbm, 172, rfl⟩
abbrev main_call8_v0 : Ref sig .tc := ⟨.hbm, 173, rfl⟩
abbrev main_call8_v1 : Ref sig .tc := ⟨.hbm, 174, rfl⟩
abbrev main_v116 : Ref sig .tc := ⟨.hbm, 175, rfl⟩
abbrev main_cst_25 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_26 : Ref sig .tc := ⟨.hbm, 180, rfl⟩
abbrev main_call9_v0 : Ref sig .tc := ⟨.hbm, 181, rfl⟩
abbrev main_call9_v1 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_c_27 : Ref sig .tc := ⟨.hbm, 188, rfl⟩
abbrev main_v125 : Ref sig .tc := ⟨.hbm, 189, rfl⟩
abbrev main_v126 : Ref sig .tc := ⟨.hbm, 190, rfl⟩
abbrev main_c_28 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_cst_29 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_30 : Ref sig .tc := ⟨.hbm, 213, rfl⟩
abbrev main_v147 : Ref sig .tc := ⟨.hbm, 214, rfl⟩
abbrev main_cst_31 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_cst_32 : Ref sig .tc := ⟨.hbm, 219, rfl⟩
abbrev main_call10_v0 : Ref sig .tc := ⟨.hbm, 220, rfl⟩
abbrev main_call10_v1 : Ref sig .tc := ⟨.hbm, 221, rfl⟩
abbrev main_v151 : Ref sig .tc := ⟨.hbm, 222, rfl⟩
abbrev main_cst_33 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_34 : Ref sig .tc := ⟨.hbm, 227, rfl⟩
abbrev main_call11_v0 : Ref sig .tc := ⟨.hbm, 228, rfl⟩
abbrev main_call11_v1 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_c_35 : Ref sig .tc := ⟨.hbm, 235, rfl⟩
abbrev main_v160 : Ref sig .tc := ⟨.hbm, 236, rfl⟩
abbrev main_v161 : Ref sig .tc := ⟨.hbm, 237, rfl⟩
abbrev main_c_36 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_37 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_cst_38 : Ref sig .tc := ⟨.hbm, 260, rfl⟩
abbrev main_v182 : Ref sig .tc := ⟨.hbm, 261, rfl⟩
abbrev main_cst_39 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_cst_40 : Ref sig .tc := ⟨.hbm, 266, rfl⟩
abbrev main_call12_v0 : Ref sig .tc := ⟨.hbm, 267, rfl⟩
abbrev main_call12_v1 : Ref sig .tc := ⟨.hbm, 268, rfl⟩
abbrev main_v186 : Ref sig .tc := ⟨.hbm, 269, rfl⟩
abbrev main_cst_41 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_cst_42 : Ref sig .tc := ⟨.hbm, 274, rfl⟩
abbrev main_call13_v0 : Ref sig .tc := ⟨.hbm, 275, rfl⟩
abbrev main_call13_v1 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_c_43 : Ref sig .tc := ⟨.hbm, 282, rfl⟩
abbrev main_v195 : Ref sig .tc := ⟨.hbm, 283, rfl⟩
abbrev main_v196 : Ref sig .tc := ⟨.hbm, 284, rfl⟩
abbrev main_c_44 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_cst_45 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_call14_cst : Ref sig .tc := ⟨.hbm, 304, rfl⟩
abbrev main_call14_v0 : Ref sig .tc := ⟨.hbm, 305, rfl⟩
abbrev main_v214 : Ref sig .tc := ⟨.hbm, 306, rfl⟩
abbrev main_call15_cst : Ref sig .tc := ⟨.hbm, 307, rfl⟩
abbrev main_call15_v0 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_cst_46 : Ref sig .tc := ⟨.hbm, 314, rfl⟩
abbrev main_v220 : Ref sig .tc := ⟨.hbm, 315, rfl⟩
abbrev main_cst_47 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_cst_48 : Ref sig .tc := ⟨.hbm, 320, rfl⟩
abbrev main_call16_v0 : Ref sig .tc := ⟨.hbm, 321, rfl⟩
abbrev main_call16_v1 : Ref sig .tc := ⟨.hbm, 322, rfl⟩
abbrev main_v224 : Ref sig .tc := ⟨.hbm, 323, rfl⟩
abbrev main_cst_49 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_cst_50 : Ref sig .tc := ⟨.hbm, 328, rfl⟩
abbrev main_call17_v0 : Ref sig .tc := ⟨.hbm, 329, rfl⟩
abbrev main_call17_v1 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_c_51 : Ref sig .tc := ⟨.hbm, 336, rfl⟩
abbrev main_v233 : Ref sig .tc := ⟨.hbm, 337, rfl⟩
abbrev main_v234 : Ref sig .tc := ⟨.hbm, 338, rfl⟩
abbrev main_c_52 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_cst_53 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_cst_54 : Ref sig .tc := ⟨.hbm, 361, rfl⟩
abbrev main_v255 : Ref sig .tc := ⟨.hbm, 362, rfl⟩
abbrev main_cst_55 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_cst_56 : Ref sig .tc := ⟨.hbm, 367, rfl⟩
abbrev main_call18_v0 : Ref sig .tc := ⟨.hbm, 368, rfl⟩
abbrev main_call18_v1 : Ref sig .tc := ⟨.hbm, 369, rfl⟩
abbrev main_v259 : Ref sig .tc := ⟨.hbm, 370, rfl⟩
abbrev main_cst_57 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_cst_58 : Ref sig .tc := ⟨.hbm, 375, rfl⟩
abbrev main_call19_v0 : Ref sig .tc := ⟨.hbm, 376, rfl⟩
abbrev main_call19_v1 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_c_59 : Ref sig .tc := ⟨.hbm, 383, rfl⟩
abbrev main_v268 : Ref sig .tc := ⟨.hbm, 384, rfl⟩
abbrev main_v269 : Ref sig .tc := ⟨.hbm, 385, rfl⟩
abbrev main_c_60 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_cst_61 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_v279 : Ref sig .tc := ⟨.hbm, 397, rfl⟩
abbrev main_v280 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_cst_62 : Ref sig .tc := ⟨.hbm, 408, rfl⟩
abbrev main_v290 : Ref sig .tc := ⟨.hbm, 409, rfl⟩
abbrev main_cst_63 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_cst_64 : Ref sig .tc := ⟨.hbm, 414, rfl⟩
abbrev main_call20_v0 : Ref sig .tc := ⟨.hbm, 415, rfl⟩
abbrev main_call20_v1 : Ref sig .tc := ⟨.hbm, 416, rfl⟩
abbrev main_v294 : Ref sig .tc := ⟨.hbm, 417, rfl⟩
abbrev main_cst_65 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩
abbrev main_cst_66 : Ref sig .tc := ⟨.hbm, 422, rfl⟩
abbrev main_call21_v0 : Ref sig .tc := ⟨.hbm, 423, rfl⟩
abbrev main_call21_v1 : Ref sig .tc := ⟨.hbm, 424, rfl⟩
abbrev main_v298 : Ref sig .tc := ⟨.hbm, 425, rfl⟩
abbrev main_v299 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_c_67 : Ref sig .tc := ⟨.hbm, 430, rfl⟩
abbrev main_v303 : Ref sig .tc := ⟨.hbm, 431, rfl⟩
abbrev main_v304 : Ref sig .tc := ⟨.hbm, 432, rfl⟩
abbrev main_c_68 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_cst_69 : Ref sig .tc := ⟨.hbm, 439, rfl⟩
abbrev main_v310 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_v318 : Ref sig .tc := ⟨.hbm, 448, rfl⟩
abbrev main_v319 : Ref sig .tc := ⟨.hbm, 449, rfl⟩
abbrev main_v320 : Ref sig .tc := ⟨.hbm, 450, rfl⟩
abbrev main_v321 : Ref sig .tc := ⟨.hbm, 451, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with its two results read.

  The program is a line of segments: stretches of array operations on the host and six tiled regions.  The
  contents of every buffer at each boundary between segments are a fold from the launch memory: a stretch rewrites
  the buffers its operations write, a region leaves in its output array what its grid points wrote back and every
  other buffer as it found it.  Every weakly fair execution ends with each unscoped buffer at the last boundary's
  contents; read at the two result buffers (the drug features after the fifth region, the protein features after
  the sixth) and at the argument buffers, which no segment writes.
-/
import proofs.«173303_j47236050321804_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the two result buffers at the last boundary's
    contents and the arguments as launched. -/
theorem run : θ_run defs (onTc (τ := τ) (main (F := F))) ⟨m, fun _ => 0, ρ⟩ (fun r => ∀ c : Dev nD,
      r.2.mem ((c.tc : Thread nD τ).loc main_v225) = W24 m ρ c (Proc.devRef .tc main_v225)
      ∧ r.2.mem ((c.tc : Thread nD τ).loc main_v230) = W24 m ρ c (Proc.devRef .tc main_v230)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v225 (by decide)), h c _ (mem_uc main_v230 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.ValueRun

end
-- ==== Proof.Fold.lean ====
/-
  Walking the fold of buffer contents back across a region.

  A tiled region rewrites only the arrays behind its windows; every other buffer holds at the region's exit what
  it held at its entry.  Stated once per region in the form a rewriting pass can use: the buffer is any reference
  that is none of the region's arrays (a finite check over the region's windows).
-/
import proofs.«173303_j47236050321804_1_alg».proof.Proof.Gen.KernelIdeal.Frame
import Idealize.ShloMosaic.Lib.StableHlo.Run

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Across the first region: a buffer that is none of its seven arrays is as the region found it. -/
theorem W14_ne' (c : Dev nD) {b : Ref sig .tc} (hb : ∀ w, Pipeline.arrRef spec0 w ≠ b) :
    W14 m ρ c (no_index (Proc.devRef .tc b)) = W13 m ρ c (Proc.devRef .tc b) := W14_of_ne m ρ c b hb
/-- Across the second region (four arrays). -/
theorem W16_ne' (c : Dev nD) {b : Ref sig .tc} (hb : ∀ w, Pipeline.arrRef spec1 w ≠ b) :
    W16 m ρ c (no_index (Proc.devRef .tc b)) = W15 m ρ c (Proc.devRef .tc b) := W16_of_ne m ρ c b hb
/-- Across the third region (seven arrays). -/
theorem W18_ne' (c : Dev nD) {b : Ref sig .tc} (hb : ∀ w, Pipeline.arrRef spec2 w ≠ b) :
    W18 m ρ c (no_index (Proc.devRef .tc b)) = W17 m ρ c (Proc.devRef .tc b) := W18_of_ne m ρ c b hb
/-- Across the fourth region (four arrays). -/
theorem W20_ne' (c : Dev nD) {b : Ref sig .tc} (hb : ∀ w, Pipeline.arrRef spec3 w ≠ b) :
    W20 m ρ c (no_index (Proc.devRef .tc b)) = W19 m ρ c (Proc.devRef .tc b) := W20_of_ne m ρ c b hb
/-- Across the fifth region (seven arrays). -/
theorem W22_ne' (c : Dev nD) {b : Ref sig .tc} (hb : ∀ w, Pipeline.arrRef spec4 w ≠ b) :
    W22 m ρ c (no_index (Proc.devRef .tc b)) = W21 m ρ c (Proc.devRef .tc b) := W22_of_ne m ρ c b hb
/-- Across the sixth region (four arrays). -/
theorem W24_ne' (c : Dev nD) {b : Ref sig .tc} (hb : ∀ w, Pipeline.arrRef spec5 w ≠ b) :
    W24 m ρ c (no_index (Proc.devRef .tc b)) = W23 m ρ c (Proc.devRef .tc b) := W24_of_ne m ρ c b hb

end Cert.KernelIdeal.Fold

end
-- ==== Proof.In0.lean ====
/-
  What the drug update of layer 1 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The drug–drug aggregate of layer 1, as the update finds it, is the reference's stage. -/
theorem in0_a1 (c : Dev nD) :
    V13 m ρ c main_v44 = Cert.ReferenceIdeal.ReadP.val_main_v30 (F := F) (m ((c.tc : Thread nD τ).loc main_arg0)) (m ((c.tc : Thread nD τ).loc main_arg2)) (m ((c.tc : Thread nD τ).loc main_arg3)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The first relation's weight matrix of layer 1, as the update finds it, is the reference's stage. -/
theorem in0_w1 (c : Dev nD) :
    V13 m ρ c main_v82 = Cert.ReferenceIdeal.ReadP.val_main_v1 (F := F) (m ((c.tc : Thread nD τ).loc main_arg8)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The first relation's bias of layer 1, as the update finds it, is the reference's stage. -/
theorem in0_b1 (c : Dev nD) :
    V13 m ρ c main_v84 = Cert.ReferenceIdeal.ReadP.val_main_v3 (F := F) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The protein–drug aggregate of layer 1, as the update finds it, is the reference's stage. -/
theorem in0_a2 (c : Dev nD) :
    V13 m ρ c main_v62 = Cert.ReferenceIdeal.ReadP.val_main_v65 (F := F) (m ((c.tc : Thread nD τ).loc main_arg1)) (m ((c.tc : Thread nD τ).loc main_arg4)) (m ((c.tc : Thread nD τ).loc main_arg5)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The second relation's weight matrix of layer 1, as the update finds it, is the reference's stage. -/
theorem in0_w2 (c : Dev nD) :
    V13 m ρ c main_v86 = Cert.ReferenceIdeal.ReadP.val_main_v36 (F := F) (m ((c.tc : Thread nD τ).loc main_arg8)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The second relation's bias of layer 1, as the update finds it, is the reference's stage. -/
theorem in0_b2 (c : Dev nD) :
    V13 m ρ c main_v88 = Cert.ReferenceIdeal.ReadP.val_main_v38 (F := F) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.In1.lean ====
/-
  What the protein update of layer 1 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The protein–protein aggregate of layer 1, as the update finds it, is the reference's stage. -/
theorem in1_a (c : Dev nD) :
    V15 m ρ c main_v80 = Cert.ReferenceIdeal.ReadP.val_main_v100 (F := F) (m ((c.tc : Thread nD τ).loc main_arg1)) (m ((c.tc : Thread nD τ).loc main_arg6)) (m ((c.tc : Thread nD τ).loc main_arg7)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The relation's weight matrix of layer 1, as the update finds it, is the reference's stage. -/
theorem in1_w (c : Dev nD) :
    V15 m ρ c main_v91 = Cert.ReferenceIdeal.ReadP.val_main_v71 (F := F) (m ((c.tc : Thread nD τ).loc main_arg8)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The relation's bias of layer 1, as the update finds it, is the reference's stage. -/
theorem in1_b (c : Dev nD) :
    V15 m ρ c main_v93 = Cert.ReferenceIdeal.ReadP.val_main_v73 (F := F) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.In2.lean ====
/-
  What the drug update of layer 2 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands — the previous
  layer's features entering as they left that layer's updates, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The drug–drug aggregate of layer 2, as the update finds it, is the reference's stage. -/
theorem in2_a1 (c : Dev nD)
    (h0 : W14 m ρ c (Proc.devRef .tc main_v89) = Cert.ReferenceIdeal.ReadP.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)))
    (h1 : W16 m ρ c (Proc.devRef .tc main_v94) = Cert.ReferenceIdeal.ReadP.val_main_v107 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))) :
    V17 m ρ c main_v112 = Cert.ReferenceIdeal.ReadP.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h0, h1]
  rfl

set_option maxHeartbeats 8000000 in
/-- The first relation's weight matrix of layer 2, as the update finds it, is the reference's stage. -/
theorem in2_w1 (c : Dev nD) :
    V17 m ρ c main_v150 = Cert.ReferenceIdeal.ReadP.val_main_v109 (F := F) (m ((c.tc : Thread nD τ).loc main_arg10)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The first relation's bias of layer 2, as the update finds it, is the reference's stage. -/
theorem in2_b1 (c : Dev nD) :
    V17 m ρ c main_v152 = Cert.ReferenceIdeal.ReadP.val_main_v111 (F := F) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The protein–drug aggregate of layer 2, as the update finds it, is the reference's stage. -/
theorem in2_a2 (c : Dev nD)
    (h0 : W14 m ρ c (Proc.devRef .tc main_v89) = Cert.ReferenceIdeal.ReadP.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)))
    (h1 : W16 m ρ c (Proc.devRef .tc main_v94) = Cert.ReferenceIdeal.ReadP.val_main_v107 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))) :
    V17 m ρ c main_v130 = Cert.ReferenceIdeal.ReadP.val_main_v173 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h0, h1]
  rfl

set_option maxHeartbeats 8000000 in
/-- The second relation's weight matrix of layer 2, as the update finds it, is the reference's stage. -/
theorem in2_w2 (c : Dev nD) :
    V17 m ρ c main_v154 = Cert.ReferenceIdeal.ReadP.val_main_v144 (F := F) (m ((c.tc : Thread nD τ).loc main_arg10)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The second relation's bias of layer 2, as the update finds it, is the reference's stage. -/
theorem in2_b2 (c : Dev nD) :
    V17 m ρ c main_v156 = Cert.ReferenceIdeal.ReadP.val_main_v146 (F := F) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.In3.lean ====
/-
  What the protein update of layer 2 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands — the previous
  layer's features entering as they left that layer's updates, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The protein–protein aggregate of layer 2, as the update finds it, is the reference's stage. -/
theorem in3_a (c : Dev nD)
    (h0 : W14 m ρ c (Proc.devRef .tc main_v89) = Cert.ReferenceIdeal.ReadP.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)))
    (h1 : W16 m ρ c (Proc.devRef .tc main_v94) = Cert.ReferenceIdeal.ReadP.val_main_v107 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))) :
    V19 m ρ c main_v148 = Cert.ReferenceIdeal.ReadP.val_main_v208 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h0, h1]
  rfl

set_option maxHeartbeats 8000000 in
/-- The relation's weight matrix of layer 2, as the update finds it, is the reference's stage. -/
theorem in3_w (c : Dev nD) :
    V19 m ρ c main_v159 = Cert.ReferenceIdeal.ReadP.val_main_v179 (F := F) (m ((c.tc : Thread nD τ).loc main_arg10)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The relation's bias of layer 2, as the update finds it, is the reference's stage. -/
theorem in3_b (c : Dev nD) :
    V19 m ρ c main_v161 = Cert.ReferenceIdeal.ReadP.val_main_v181 (F := F) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.In4.lean ====
/-
  What the drug update of layer 3 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands — the previous
  layer's features entering as they left that layer's updates, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The drug–drug aggregate of layer 3, as the update finds it, is the reference's stage. -/
theorem in4_a1 (c : Dev nD)
    (h2 : W18 m ρ c (Proc.devRef .tc main_v157) = Cert.ReferenceIdeal.ReadP.val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h3 : W20 m ρ c (Proc.devRef .tc main_v162) = Cert.ReferenceIdeal.ReadP.val_main_v215 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V21 m ρ c main_v180 = Cert.ReferenceIdeal.ReadP.val_main_v246 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h2, h3]
  rfl

set_option maxHeartbeats 8000000 in
/-- The first relation's weight matrix of layer 3, as the update finds it, is the reference's stage. -/
theorem in4_w1 (c : Dev nD) :
    V21 m ρ c main_v218 = Cert.ReferenceIdeal.ReadP.val_main_v217 (F := F) (m ((c.tc : Thread nD τ).loc main_arg12)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The first relation's bias of layer 3, as the update finds it, is the reference's stage. -/
theorem in4_b1 (c : Dev nD) :
    V21 m ρ c main_v220 = Cert.ReferenceIdeal.ReadP.val_main_v219 (F := F) (m ((c.tc : Thread nD τ).loc main_arg13)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The protein–drug aggregate of layer 3, as the update finds it, is the reference's stage. -/
theorem in4_a2 (c : Dev nD)
    (h2 : W18 m ρ c (Proc.devRef .tc main_v157) = Cert.ReferenceIdeal.ReadP.val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h3 : W20 m ρ c (Proc.devRef .tc main_v162) = Cert.ReferenceIdeal.ReadP.val_main_v215 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V21 m ρ c main_v198 = Cert.ReferenceIdeal.ReadP.val_main_v281 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h2, h3]
  rfl

set_option maxHeartbeats 8000000 in
/-- The second relation's weight matrix of layer 3, as the update finds it, is the reference's stage. -/
theorem in4_w2 (c : Dev nD) :
    V21 m ρ c main_v222 = Cert.ReferenceIdeal.ReadP.val_main_v252 (F := F) (m ((c.tc : Thread nD τ).loc main_arg12)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The second relation's bias of layer 3, as the update finds it, is the reference's stage. -/
theorem in4_b2 (c : Dev nD) :
    V21 m ρ c main_v224 = Cert.ReferenceIdeal.ReadP.val_main_v254 (F := F) (m ((c.tc : Thread nD τ).loc main_arg13)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.In5.lean ====
/-
  What the protein update of layer 3 finds in its input arrays.

  Each array the update reads was written by the host operations before it: the normalised neighbourhood
  aggregate (scale the source features by the inverse square root of the out-degree, gather along the edges,
  add up at each destination, scale by the inverse square root of the in-degree), and the layer's slice of the
  weights and of the biases.  The reference performs the same host operations on the same operands — the previous
  layer's features entering as they left that layer's updates, so each array is the
  reference's stage of the same name, as whole arrays; the degrees, which the kernel counts once and the reference
  again in every layer, are the same term of the edge lists.

  Each proof is one rewriting pass that reads the buffer at the update's entry — unfold the stretches of host
  operations back to the launch, take each operation's result at its own buffer and step over it at any other,
  step back across an earlier region at a buffer that is none of its arrays, stop at an earlier update's output —
  and then the two sides are one term.
-/
import proofs.«173303_j47236050321804_1_alg».proof.Proof.Fold
import proofs.«173303_j47236050321804_1_alg».proof.Proof.RefReadP

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The protein–protein aggregate of layer 3, as the update finds it, is the reference's stage. -/
theorem in5_a (c : Dev nD)
    (h2 : W18 m ρ c (Proc.devRef .tc main_v157) = Cert.ReferenceIdeal.ReadP.val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h3 : W20 m ρ c (Proc.devRef .tc main_v162) = Cert.ReferenceIdeal.ReadP.val_main_v215 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V23 m ρ c main_v216 = Cert.ReferenceIdeal.ReadP.val_main_v316 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  try simp only [h2, h3]
  rfl

set_option maxHeartbeats 8000000 in
/-- The relation's weight matrix of layer 3, as the update finds it, is the reference's stage. -/
theorem in5_w (c : Dev nD) :
    V23 m ρ c main_v227 = Cert.ReferenceIdeal.ReadP.val_main_v287 (F := F) (m ((c.tc : Thread nD τ).loc main_arg12)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

set_option maxHeartbeats 8000000 in
/-- The relation's bias of layer 3, as the update finds it, is the reference's stage. -/
theorem in5_b (c : Dev nD) :
    V23 m ρ c main_v229 = Cert.ReferenceIdeal.ReadP.val_main_v289 (F := F) (m ((c.tc : Thread nD τ).loc main_arg13)) := by
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']
  rfl

end Cert.KernelIdeal.Stage

end
-- ==== Proof.Update.lean ====
/-
  One update of the graph network on a destination type, as a function of whole arrays over the extended reals.

  A node's new feature vector is an affine image of its aggregated neighbourhood: for one incoming relation,
  row `r` of the aggregate times the weight matrix plus the bias; for two incoming relations, the sum of the two
  affine images; then, between layers, the positive part.  Entry `(r, j)` therefore depends only on row `r` of
  each aggregate, column `j` of each weight matrix and entry `j` of each bias.

  The two-relation form is associated the way a row tile accumulates it,
  `((a₁·w₁ + b₁) + a₂·w₂) + b₂`; addition on the extended reals is associative, so this is also
  `(a₁·w₁ + b₁) + (a₂·w₂ + b₂)` (`two_eq_sum`), with no finiteness needed.
-/
import Idealize.ShloMosaic.PureOps.Ideal
import Idealize.ShloMosaic.Lib.ValueIdx

noncomputable section

namespace Cert.Update

open Idealize.ShloMosaic Idealize.ShloMosaic.ValueIdx

/-- Node features: 100000 nodes, 128 channels. -/
abbrev Feat : Type := (⟨2, ![100000, 128]⟩ : Shape).Idx → EReal
/-- A weight matrix, 128 × 128. -/
abbrev Wt : Type := (⟨2, ![128, 128]⟩ : Shape).Idx → EReal
/-- A bias vector, 128 channels. -/
abbrev Bias : Type := (⟨1, ![128]⟩ : Shape).Idx → EReal

/-- Row `r` of `a` against column `j` of `w`. -/
def dot (a : Feat) (w : Wt) (r : Fin 100000) (j : Fin 128) : EReal :=
  ∑ k : Fin 128, a (ix2 r k) * w (ix2 k j)

/-- The positive part, applied between layers and not after the last. -/
def act (on : Bool) (x : EReal) : EReal := if on then max x 0 else x

/-- One relation into a destination type: `act (a·w + b)`. -/
def one (on : Bool) (a : Feat) (w : Wt) (b : Bias) : Feat :=
  fun i => act on (dot a w (i 0) (i 1) + b (ix1 (i 1)))

/-- Two relations into a destination type: `act (((a₁·w₁ + b₁) + a₂·w₂) + b₂)`. -/
def two (on : Bool) (a₁ : Feat) (w₁ : Wt) (b₁ : Bias) (a₂ : Feat) (w₂ : Wt) (b₂ : Bias) : Feat :=
  fun i => act on (((dot a₁ w₁ (i 0) (i 1) + b₁ (ix1 (i 1))) + dot a₂ w₂ (i 0) (i 1)) + b₂ (ix1 (i 1)))

/-- The same with each relation's affine image formed first and the two then added. -/
theorem two_eq_sum (on : Bool) (a₁ : Feat) (w₁ : Wt) (b₁ : Bias) (a₂ : Feat) (w₂ : Wt) (b₂ : Bias) (i) :
    two on a₁ w₁ b₁ a₂ w₂ b₂ i
      = act on ((dot a₁ w₁ (i 0) (i 1) + b₁ (ix1 (i 1))) + (dot a₂ w₂ (i 0) (i 1) + b₂ (ix1 (i 1)))) := by
  unfold two
  rw [add_assoc]

end Cert.Update

end
-- ==== Proof.Rows.lean ====
/-
  From a row tile back to the whole array.

  An update's entry `(r, j)` depends only on row `r` of each aggregate, column `j` of each weight matrix and
  entry `j` of each bias.  So if a tile's row `p` holds the aggregate's row `r`, and the tile is given the whole
  weight matrix and bias, then the tile's arithmetic at `(p, j)` is the update at `(r, j)`.
-/
import proofs.«173303_j47236050321804_1_alg».proof.Proof.Update

noncomputable section

namespace Cert.Rows

open Idealize.ShloMosaic Idealize.ShloMosaic.ValueIdx Cert.Update

/-- 5000 rows of node features. -/
abbrev Tile : Type := (⟨2, ![5000, 128]⟩ : Shape).Idx → EReal

/-- The offsets of a block that starts at the origin. -/
theorem origin2 : (![0, 0] : Fin 2 → Nat) = fun _ => 0 := funext fun a => by fin_cases a <;> rfl
theorem origin1 : (![0] : Fin 1 → Nat) = fun _ => 0 := funext fun a => by fin_cases a <;> rfl

/-- Two relations: the tile's arithmetic at `(p, q)` is the update at `(r, q)` when row `p` of each tile is row
    `r` of its aggregate and the weights and biases are the whole ones. -/
theorem two_at (on : Bool) (a₁ : Feat) (w₁ : Wt) (b₁ : Bias) (a₂ : Feat) (w₂ : Wt) (b₂ : Bias)
    (x₁ : Tile) (y₁ : Wt) (z₁ : Bias) (x₂ : Tile) (y₂ : Wt) (z₂ : Bias) (r : Fin 100000) (p : Fin 5000) (q : Fin 128)
    (hx₁ : ∀ k : Fin 128, x₁ (ix2 p k) = a₁ (ix2 r k)) (hy₁ : ∀ k : Fin 128, y₁ (ix2 k q) = w₁ (ix2 k q)) (hz₁ : z₁ (ix1 q) = b₁ (ix1 q))
    (hx₂ : ∀ k : Fin 128, x₂ (ix2 p k) = a₂ (ix2 r k)) (hy₂ : ∀ k : Fin 128, y₂ (ix2 k q) = w₂ (ix2 k q)) (hz₂ : z₂ (ix1 q) = b₂ (ix1 q)) :
    act on ((((∑ k : Fin 128, x₁ (ix2 p k) * y₁ (ix2 k q)) + z₁ (ix1 q)) + ∑ k : Fin 128, x₂ (ix2 p k) * y₂ (ix2 k q)) + z₂ (ix1 q))
      = two on a₁ w₁ b₁ a₂ w₂ b₂ (ix2 r q) := by
  show _ = act on (((dot a₁ w₁ r q + b₁ (ix1 q)) + dot a₂ w₂ r q) + b₂ (ix1 q))
  unfold dot
  simp only [hx₁, hy₁, hz₁, hx₂, hy₂, hz₂]

/-- One relation, the same. -/
theorem one_at (on : Bool) (a : Feat) (w : Wt) (b : Bias) (x : Tile) (y : Wt) (z : Bias) (r : Fin 100000) (p : Fin 5000) (q : Fin 128)
    (hx : ∀ k : Fin 128, x (ix2 p k) = a (ix2 r k)) (hy : ∀ k : Fin 128, y (ix2 k q) = w (ix2 k q)) (hz : z (ix1 q) = b (ix1 q)) :
    act on ((∑ k : Fin 128, x (ix2 p k) * y (ix2 k q)) + z (ix1 q)) = one on a w b (ix2 r q) := by
  show _ = act on (dot a w r q + b (ix1 q))
  unfold dot
  simp only [hx, hy, hz]

end Cert.Rows

end
-- ==== Proof.Tile.lean ====
/-
  The arithmetic of one row tile of an update, read entry by entry over the extended reals.

  A tile holds 5000 rows of an aggregate; the weight matrix and the bias are whole.  The tile's result at
  row `p`, channel `q` is the row of the aggregate against column `q` of the weights (a sum over the 128
  input channels, accumulated from zero), plus entry `q` of the bias — the bias being a vector laid out as one
  row and repeated down the tile —, the second relation's product and bias added after the first's, and the
  positive part taken between layers.  The narrowing of the operands before the product is the identity on
  the extended reals.
-/
import proofs.«173303_j47236050321804_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.KernelIdeal

/-- The product's dimension numbers: rows of the tile by columns of the weights, contracted over the tile's
    channel axis and the weights' row axis. -/
abbrev D : DotDims S5000x128 S128x128 S5000x128 := dot_S5000x128_S128x128_S5000x128_1_0_0_1_n_n

/-! ## Which entries a product reads -/

/-- The left operand is read in the output's row … -/
theorem lhs_row (i : S5000x128.Idx) (c : D.contr.Idx) : (D.lhsIdx i c 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- … at the contracted channel; -/
theorem lhs_col (i : S5000x128.Idx) (c : D.contr.Idx) : (D.lhsIdx i c 1).val = (c ⟨0, by decide⟩).val :=
  D.lhsIdx_val_of_single rfl i c
/-- the right operand at the contracted channel … -/
theorem rhs_row (i : S5000x128.Idx) (c : D.contr.Idx) : (D.rhsIdx i c 0).val = (c ⟨0, by decide⟩).val :=
  D.rhsIdx_val_of_single rfl i c
/-- … in the output's column. -/
theorem rhs_col (i : S5000x128.Idx) (c : D.contr.Idx) : (D.rhsIdx i c 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A row tile against a whole weight matrix, accumulated from zero: entry `(p, q)` is row `p` of the tile
    against column `q` of the weights. -/
theorem matmul_tile {φ₁ φ₂ : FTy} (a : FVec Ideal S5000x128 φ₁) (w : FVec Ideal S128x128 φ₂) (p : Fin 5000) (q : Fin 128) :
    FloatOps.matmul D none a w (constant (F := Ideal) S5000x128 .f32 0x00000000#32) (ix2 p q)
      = ∑ k : Fin 128, a (ix2 p k) * w (ix2 k q) := by
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k :=
    funext fun ax => Fin.ext (by
      match ax with
      | ⟨0, _⟩ => exact lhs_row _ _
      | ⟨1, _⟩ => exact (lhs_col _ _).trans hk)
  have er : D.rhsIdx (ix2 p q) ((contrEquiv1 D 128 rfl rfl).symm k) = ix2 k q :=
    funext fun ax => Fin.ext (by
      match ax with
      | ⟨0, _⟩ => exact (rhs_row _ _).trans hk
      | ⟨1, _⟩ => exact rhs_col _ _)
  rw [el, er]

/-- The same with the operands first narrowed, which changes nothing on the extended reals. -/
theorem narrowed_tile (a : Vec Ideal S5000x128 .f32) (w : Vec Ideal S128x128 .f32)
    (ha : S5000x128.ShapeCasts S5000x128) (hw : S128x128.ShapeCasts S128x128) (hb : FTy.bf16.bits < FTy.f32.bits)
    (p : Fin 5000) (q : Fin 128) :
    FloatOps.matmul D none (truncf .bf16 (shapeCast S5000x128 a ha) hb) (truncf .bf16 (shapeCast S128x128 w hw) hb)
        (constant (F := Ideal) S5000x128 .f32 0x00000000#32) (ix2 p q)
      = ∑ k : Fin 128, a (ix2 p k) * w (ix2 k q) := by
  rw [shapeCast_self, shapeCast_self]
  exact matmul_tile (truncf .bf16 a hb) (truncf .bf16 w hb) p q

/-- A bias vector laid out as one row and repeated down the tile: entry `(p, q)` is the bias at `q`. -/
theorem bias_tile {α : Type} (b : S128.Idx → α) (h0 : S128.ShapeCasts S128) (h1 : S128.ShapeCasts S1x128) (h2 : S1x128.Broadcasts S5000x128)
    (p : Fin 5000) (q : Fin 128) :
    broadcastTo S5000x128 (shapeCast S1x128 (shapeCast S128 b h0) h1) h2 (ix2 p q) = b (ix1 q) := by
  rw [broadcastTo_1b_ab_apply, shapeCast_a_1a_apply, shapeCast_self]

/-! ## The six tiles -/

/-- First layer, two relations into the destination type: `max (((a₁·w₁ + b₁) + a₂·w₂) + b₂) 0` at every entry. -/
theorem tile0 (v0 v3 : Vec Ideal S5000x128 .f32) (v6 v9 : Vec Ideal S128x128 .f32) (v13 v20 : Vec Ideal S128 .f32)
    (p : Fin 5000) (q : Fin 128) :
    Gen.k0_pay1 (F := Ideal) v0 v3 v6 v9 v13 v20 (ix2 p q)
      = max ((((∑ k : Fin 128, v0 (ix2 p k) * v6 (ix2 k q)) + v13 (ix1 q)) + ∑ k : Fin 128, v3 (ix2 p k) * v9 (ix2 k q)) + v20 (ix1 q)) 0 := by
  unfold Gen.k0_pay1
  rw [maximumf_apply, addf_apply, addf_apply, addf_apply, broadcast_apply]
  refine congrArg₂ max (congrArg₂ (· + ·) (congrArg₂ (· + ·) (congrArg₂ (· + ·) ?_ ?_) ?_) ?_) Ideal.ofBits_zero_f32
  · exact narrowed_tile v0 v6 _ _ _ p q
  · exact bias_tile v13 _ _ _ p q
  · exact narrowed_tile v3 v9 _ _ _ p q
  · exact bias_tile v20 _ _ _ p q

/-- First layer, one relation: `max (a·w + b) 0`. -/
theorem tile1 (v0 : Vec Ideal S5000x128 .f32) (v3 : Vec Ideal S128x128 .f32) (v7 : Vec Ideal S128 .f32)
    (p : Fin 5000) (q : Fin 128) :
    Gen.k1_pay1 (F := Ideal) v0 v3 v7 (ix2 p q) = max ((∑ k : Fin 128, v0 (ix2 p k) * v3 (ix2 k q)) + v7 (ix1 q)) 0 := by
  unfold Gen.k1_pay1
  rw [maximumf_apply, addf_apply, broadcast_apply]
  refine congrArg₂ max (congrArg₂ (· + ·) ?_ ?_) Ideal.ofBits_zero_f32
  · exact narrowed_tile v0 v3 _ _ _ p q
  · exact bias_tile v7 _ _ _ p q

/-- Second layer, two relations: the same arithmetic as the first layer's. -/
theorem tile2 (v0 v3 : Vec Ideal S5000x128 .f32) (v6 v9 : Vec Ideal S128x128 .f32) (v13 v20 : Vec Ideal S128 .f32)
    (p : Fin 5000) (q : Fin 128) :
    Gen.k2_pay1 (F := Ideal) v0 v3 v6 v9 v13 v20 (ix2 p q)
      = max ((((∑ k : Fin 128, v0 (ix2 p k) * v6 (ix2 k q)) + v13 (ix1 q)) + ∑ k : Fin 128, v3 (ix2 p k) * v9 (ix2 k q)) + v20 (ix1 q)) 0 :=
  tile0 v0 v3 v6 v9 v13 v20 p q

/-- Second layer, one relation. -/
theorem tile3 (v0 : Vec Ideal S5000x128 .f32) (v3 : Vec Ideal S128x128 .f32) (v7 : Vec Ideal S128 .f32)
    (p : Fin 5000) (q : Fin 128) :
    Gen.k3_pay1 (F := Ideal) v0 v3 v7 (ix2 p q) = max ((∑ k : Fin 128, v0 (ix2 p k) * v3 (ix2 k q)) + v7 (ix1 q)) 0 :=
  tile1 v0 v3 v7 p q

/-- Last layer, two relations: no positive part. -/
theorem tile4 (v0 v3 : Vec Ideal S5000x128 .f32) (v6 v9 : Vec Ideal S128x128 .f32) (v13 v20 : Vec Ideal S128 .f32)
    (p : Fin 5000) (q : Fin 128) :
    Gen.k4_pay1 (F := Ideal) v0 v3 v6 v9 v13 v20 (ix2 p q)
      = (((∑ k : Fin 128, v0 (ix2 p k) * v6 (ix2 k q)) + v13 (ix1 q)) + ∑ k : Fin 128, v3 (ix2 p k) * v9 (ix2 k q)) + v20 (ix1 q) := by
  unfold Gen.k4_pay1
  rw [addf_apply, addf_apply, addf_apply]
  refine congrArg₂ (· + ·) (congrArg₂ (· + ·) (congrArg₂ (· + ·) ?_ ?_) ?_) ?_
  · exact narrowed_tile v0 v6 _ _ _ p q
  · exact bias_tile v13 _ _ _ p q
  · exact narrowed_tile v3 v9 _ _ _ p q
  · exact bias_tile v20 _ _ _ p q

/-- Last layer, one relation: no positive part. -/
theorem tile5 (v0 : Vec Ideal S5000x128 .f32) (v3 : Vec Ideal S128x128 .f32) (v7 : Vec Ideal S128 .f32)
    (p : Fin 5000) (q : Fin 128) :
    Gen.k5_pay1 (F := Ideal) v0 v3 v7 (ix2 p q) = (∑ k : Fin 128, v0 (ix2 p k) * v3 (ix2 k q)) + v7 (ix1 q) := by
  unfold Gen.k5_pay1
  rw [addf_apply]
  refine congrArg₂ (· + ·) ?_ ?_
  · exact narrowed_tile v0 v3 _ _ _ p q
  · exact bias_tile v7 _ _ _ p q

end Cert.KernelIdeal.Tile

end
-- ==== Proof.Region0.lean ====
/-
  Region 0: a two-relation update, tiled over 20 blocks of 5000 rows, read as one function of the arrays
  the region finds on entry.

  Grid point `t` is given rows `5000 t … 5000 t + 4999` of each aggregate and the whole of each weight matrix
  and bias, and writes back rows `5000 t … 5000 t + 4999` of the result.  What it writes is the update's
  restriction to those rows, and the 20 blocks cover every row (row `r` lies in block `r / 5000`), so the
  result array ends holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregates' and the result's blocks move down the rows with the
    point, the weights' and biases' stay at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The blocks a point is given -/

/-- Row `p` of the first aggregate's block at point `t` is row `5000 t + p` of the aggregate. -/
theorem agg0_1 (c : Dev nD) (t : Fin cfg0.N) (p : Fin 5000) (k : Fin 128) (r : Fin 100000) (hr : r.val = t.val * 5000 + p.val) :
    (iblk0 V c 0 t : Rows.Tile) (ix2 p k) = (V c main_v44 : Update.Feat) (ix2 r k) := by
  obtain ⟨e0, e1, -⟩ := idx0 t
  show (V c main_v44 : Update.Feat) (((cfg0.win 0).blk t).view.emb (ix2 p k)) = _
  refine congrArg (V c main_v44 : Update.Feat) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The first weight matrix is given whole. -/
theorem wt0_1 (c : Dev nD) (t : Fin cfg0.N) (k q : Fin 128) :
    (iblk0 V c 1 t : Update.Wt) (ix2 k q) = (V c main_v82 : Update.Wt) (ix2 k q) := by
  obtain ⟨-, -, e0, e1, -⟩ := idx0 t
  show (V c main_v82 : Update.Wt) (((cfg0.win 1).blk t).view.emb (ix2 k q)) = _
  refine congrArg (V c main_v82 : Update.Wt) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The first bias is given whole. -/
theorem bias0_1 (c : Dev nD) (t : Fin cfg0.N) (q : Fin 128) :
    (iblk0 V c 2 t : Update.Bias) (ix1 q) = (V c main_v84 : Update.Bias) (ix1 q) := by
  obtain ⟨-, -, -, -, e0, -⟩ := idx0 t
  show (V c main_v84 : Update.Bias) (((cfg0.win 2).blk t).view.emb (ix1 q)) = _
  refine congrArg (V c main_v84 : Update.Bias) (funext fun a => Fin.ext ?_)
  match a with
  | ⟨0, _⟩ => show win0_2.index t (0 : Fin 1) * 128 + 1 * q.val = q.val; omega

/-- Row `p` of the second aggregate's block at point `t` is row `5000 t + p` of the aggregate. -/
theorem agg0_2 (c : Dev nD) (t : Fin cfg0.N) (p : Fin 5000) (k : Fin 128) (r : Fin 100000) (hr : r.val = t.val * 5000 + p.val) :
    (iblk0 V c 3 t : Rows.Tile) (ix2 p k) = (V c main_v62 : Update.Feat) (ix2 r k) := by
  obtain ⟨-, -, -, -, -, e0, e1, -⟩ := idx0 t
  show (V c main_v62 : Update.Feat) (((cfg0.win 3).blk t).view.emb (ix2 p k)) = _
  refine congrArg (V c main_v62 : Update.Feat) (funext fun a => Fin.ext ?_)
  match a with
  | ⟨0, _⟩ => show win0_3.index t (0 : Fin 2) * 5000 + 1 * p.val = r.val; omega
  | ⟨1, _⟩ => show win0_3.index t (1 : Fin 2) * 128 + 1 * k.val = k.val; omega

/-- The second weight matrix is given whole. -/
theorem wt0_2 (c : Dev nD) (t : Fin cfg0.N) (k q : Fin 128) :
    (iblk0 V c 4 t : Update.Wt) (ix2 k q) = (V c main_v86 : Update.Wt) (ix2 k q) := by
  obtain ⟨-, -, -, -, -, -, -, e0, e1, -⟩ := idx0 t
  show (V c main_v86 : Update.Wt) (((cfg0.win 4).blk t).view.emb (ix2 k q)) = _
  refine congrArg (V c main_v86 : Update.Wt) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The second bias is given whole. -/
theorem bias0_2 (c : Dev nD) (t : Fin cfg0.N) (q : Fin 128) :
    (iblk0 V c 5 t : Update.Bias) (ix1 q) = (V c main_v88 : Update.Bias) (ix1 q) := by
  obtain ⟨-, -, -, -, -, -, -, -, -, e0, -⟩ := idx0 t
  show (V c main_v88 : Update.Bias) (((cfg0.win 5).blk t).view.emb (ix1 q)) = _
  refine congrArg (V c main_v88 : Update.Bias) (funext fun a => Fin.ext ?_)
  match a with
  | ⟨0, _⟩ => show win0_5.index t (0 : Fin 1) * 128 + 1 * q.val = q.val; omega

/-! ## What a point writes back -/

/-- Point `t` writes back the update's rows `5000 t … 5000 t + 4999`. -/
theorem flushed0 (c : Dev nD) (t : Fin cfg0.N) :
    (dat0 (F := Ideal) V c).flushed 6 t = ((cfg0.win 6).blk t).view.read (Elt Ideal)
      (Update.two true (V c main_v44) (V c main_v82) (V c main_v84) (V c main_v62) (V c main_v86) (V c main_v88)) := by
  show (cfg0.win 6).cut (grid0.coords t) ((dat0 V c).after 6 t) = _
  rw [after0_6]
  unfold out0_6
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, -, -, -, -, -, e0, e1⟩ := idx0 t
  have hout : ((cfg0.win 6).blk t).view.emb (ix2 p q) = (ix2 r q : S100000x128.Idx) := funext fun a => Fin.ext (by
    match a with
    | ⟨0, _⟩ => show win0_6.index t (0 : Fin 2) * 5000 + 1 * p.val = r.val; omega
    | ⟨1, _⟩ => show win0_6.index t (1 : Fin 2) * 128 + 1 * q.val = q.val; omega)
  show k0_pay1 (iblk0 V c 0 t) (iblk0 V c 3 t) (iblk0 V c 1 t) (iblk0 V c 4 t) (iblk0 V c 2 t) (iblk0 V c 5 t) (ix2 p q)
    = Update.two true (V c main_v44) (V c main_v82) (V c main_v84) (V c main_v62) (V c main_v86) (V c main_v88) (((cfg0.win 6).blk t).view.emb (ix2 p q))
  rw [hout]
  refine (Tile.tile0 (iblk0 V c 0 t) (iblk0 V c 3 t) (iblk0 V c 1 t) (iblk0 V c 4 t) (iblk0 V c 2 t) (iblk0 V c 5 t) p q).trans ?_
  exact Rows.two_at true (V c main_v44) (V c main_v82) (V c main_v84) (V c main_v62) (V c main_v86) (V c main_v88)
    (iblk0 V c 0 t) (iblk0 V c 1 t) (iblk0 V c 2 t) (iblk0 V c 3 t) (iblk0 V c 4 t) (iblk0 V c 5 t) r p q
    (fun k => agg0_1 V c t p k r hr) (fun k => wt0_1 V c t k q) (bias0_1 V c t q)
    (fun k => agg0_2 V c t p k r hr) (fun k => wt0_2 V c t k q) (bias0_2 V c t q)

/-! ## The blocks cover the array -/

/-- An entry of the result lies in point `t`'s block iff each coordinate lies in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v89).slice (win0_6.rect t)).set ↔ _
  rw [View.set_slice_whole, Rect.mem_set_unit]
  exact Iff.rfl

/-- Row `r` lies in the block of point `r / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The result array -/

/-- After the region the result array holds the two-relation update of the arrays the region found. -/
theorem final0 (c : Dev nD) :
    (dat0 (F := Ideal) V c).arrAt 6 cfg0.N
      = Update.two true (V c main_v44) (V c main_v82) (V c main_v84) (V c main_v62) (V c main_v86) (V c main_v88) :=
  (dat0 (F := Ideal) V c).arrAt_eq_of_cover 6 _ (fun t _ => flushed0 V c t) cover0

end Cert.KernelIdeal.RegionValue

end
-- ==== Proof.Region1.lean ====
/-
  Region 1: a one-relation update, tiled over 20 blocks of 5000 rows, read as one function of the arrays
  the region finds on entry.

  Grid point `t` is given rows `5000 t … 5000 t + 4999` of the aggregate and the whole weight matrix and bias,
  and writes back rows `5000 t … 5000 t + 4999` of the result.  What it writes is the update's restriction to
  those rows, and the 20 blocks cover every row (row `r` lies in block `r / 5000`), so the result array ends
  holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregate's and the result's blocks move down the rows with the
    point, the weights' and the bias's stay at the origin. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-! ## The blocks a point is given -/

/-- Row `p` of the aggregate's block at point `t` is row `5000 t + p` of the aggregate. -/
theorem agg1 (c : Dev nD) (t : Fin cfg1.N) (p : Fin 5000) (k : Fin 128) (r : Fin 100000) (hr : r.val = t.val * 5000 + p.val) :
    (iblk1 V c 0 t : Rows.Tile) (ix2 p k) = (V c main_v80 : Update.Feat) (ix2 r k) := by
  obtain ⟨e0, e1, -⟩ := idx1 t
  show (V c main_v80 : Update.Feat) (((cfg1.win 0).blk t).view.emb (ix2 p k)) = _
  refine congrArg (V c main_v80 : Update.Feat) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight matrix is given whole. -/
theorem wt1 (c : Dev nD) (t : Fin cfg1.N) (k q : Fin 128) :
    (iblk1 V c 1 t : Update.Wt) (ix2 k q) = (V c main_v91 : Update.Wt) (ix2 k q) := by
  obtain ⟨-, -, e0, e1, -⟩ := idx1 t
  show (V c main_v91 : Update.Wt) (((cfg1.win 1).blk t).view.emb (ix2 k q)) = _
  refine congrArg (V c main_v91 : Update.Wt) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias is given whole. -/
theorem bias1 (c : Dev nD) (t : Fin cfg1.N) (q : Fin 128) :
    (iblk1 V c 2 t : Update.Bias) (ix1 q) = (V c main_v93 : Update.Bias) (ix1 q) := by
  obtain ⟨-, -, -, -, e0, -⟩ := idx1 t
  show (V c main_v93 : Update.Bias) (((cfg1.win 2).blk t).view.emb (ix1 q)) = _
  refine congrArg (V c main_v93 : Update.Bias) (funext fun a => Fin.ext ?_)
  match a with
  | ⟨0, _⟩ => show win1_2.index t (0 : Fin 1) * 128 + 1 * q.val = q.val; omega

/-! ## What a point writes back -/

/-- Point `t` writes back the update's rows `5000 t … 5000 t + 4999`. -/
theorem flushed1 (c : Dev nD) (t : Fin cfg1.N) :
    (dat1 (F := Ideal) V c).flushed 3 t = ((cfg1.win 3).blk t).view.read (Elt Ideal)
      (Update.one true (V c main_v80) (V c main_v91) (V c main_v93)) := by
  show (cfg1.win 3).cut (grid1.coords t) ((dat1 V c).after 3 t) = _
  rw [after1_3]
  unfold out1_3
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, e0, e1⟩ := idx1 t
  have hout : ((cfg1.win 3).blk t).view.emb (ix2 p q) = (ix2 r q : S100000x128.Idx) := funext fun a => Fin.ext (by
    match a with
    | ⟨0, _⟩ => show win1_3.index t (0 : Fin 2) * 5000 + 1 * p.val = r.val; omega
    | ⟨1, _⟩ => show win1_3.index t (1 : Fin 2) * 128 + 1 * q.val = q.val; omega)
  show k1_pay1 (iblk1 V c 0 t) (iblk1 V c 1 t) (iblk1 V c 2 t) (ix2 p q)
    = Update.one true (V c main_v80) (V c main_v91) (V c main_v93) (((cfg1.win 3).blk t).view.emb (ix2 p q))
  rw [hout]
  refine (Tile.tile1 (iblk1 V c 0 t) (iblk1 V c 1 t) (iblk1 V c 2 t) p q).trans ?_
  exact Rows.one_at true (V c main_v80) (V c main_v91) (V c main_v93)
    (iblk1 V c 0 t) (iblk1 V c 1 t) (iblk1 V c 2 t) r p q
    (fun k => agg1 V c t p k r hr) (fun k => wt1 V c t k q) (bias1 V c t q)

/-! ## The blocks cover the array -/

/-- An entry of the result lies in point `t`'s block iff each coordinate lies in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v94).slice (win1_3.rect t)).set ↔ _
  rw [View.set_slice_whole, Rect.mem_set_unit]
  exact Iff.rfl

/-- Row `r` lies in the block of point `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, e0, e1⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-! ## The result array -/

/-- After the region the result array holds the one-relation update of the arrays the region found. -/
theorem final1 (c : Dev nD) :
    (dat1 (F := Ideal) V c).arrAt 3 cfg1.N = Update.one true (V c main_v80) (V c main_v91) (V c main_v93) :=
  (dat1 (F := Ideal) V c).arrAt_eq_of_cover 3 _ (fun t _ => flushed1 V c t) cover1

end Cert.KernelIdeal.RegionValue

end
-- ==== Proof.Region2.lean ====
/-
  Region 2: a two-relation update, tiled over 20 blocks of 5000 rows, read as one function of the arrays
  the region finds on entry.

  Grid point `t` is given rows `5000 t … 5000 t + 4999` of each aggregate and the whole of each weight matrix
  and bias, and writes back rows `5000 t … 5000 t + 4999` of the result.  What it writes is the update's
  restriction to those rows, and the 20 blocks cover every row (row `r` lies in block `r / 5000`), so the
  result array ends holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregates' and the result's blocks move down the rows with the
    point, the weights' and biases' stay at the origin. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-! ## The blocks a point is given -/

/-- Row `p` of the first aggregate's block at point `t` is row `5000 t + p` of the aggregate. -/
theorem agg2_1 (c : Dev nD) (t : Fin cfg2.N) (p : Fin 5000) (k : Fin 128) (r : Fin 100000) (hr : r.val = t.val * 5000 + p.val) :
    (iblk2 V c 0 t : Rows.Tile) (ix2 p k) = (V c main_v112 : Update.Feat) (ix2 r k) := by
  obtain ⟨e0, e1, -⟩ := idx2 t
  show (V c main_v112 : Update.Feat) (((cfg2.win 0).blk t).view.emb (ix2 p k)) = _
  refine congrArg (V c main_v112 : Update.Feat) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The first weight matrix is given whole. -/
theorem wt2_1 (c : Dev nD) (t : Fin cfg2.N) (k q : Fin 128) :
    (iblk2 V c 1 t : Update.Wt) (ix2 k q) = (V c main_v150 : Update.Wt) (ix2 k q) := by
  obtain ⟨-, -, e0, e1, -⟩ := idx2 t
  show (V c main_v150 : Update.Wt) (((cfg2.win 1).blk t).view.emb (ix2 k q)) = _
  refine congrArg (V c main_v150 : Update.Wt) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The first bias is given whole. -/
theorem bias2_1 (c : Dev nD) (t : Fin cfg2.N) (q : Fin 128) :
    (iblk2 V c 2 t : Update.Bias) (ix1 q) = (V c main_v152 : Update.Bias) (ix1 q) := by
  obtain ⟨-, -, -, -, e0, -⟩ := idx2 t
  show (V c main_v152 : Update.Bias) (((cfg2.win 2).blk t).view.emb (ix1 q)) = _
  refine congrArg (V c main_v152 : Update.Bias) (funext fun a => Fin.ext ?_)
  match a with
  | ⟨0, _⟩ => show win2_2.index t (0 : Fin 1) * 128 + 1 * q.val = q.val; omega

/-- Row `p` of the second aggregate's block at point `t` is row `5000 t + p` of the aggregate. -/
theorem agg2_2 (c : Dev nD) (t : Fin cfg2.N) (p : Fin 5000) (k : Fin 128) (r : Fin 100000) (hr : r.val = t.val * 5000 + p.val) :
    (iblk2 V c 3 t : Rows.Tile) (ix2 p k) = (V c main_v130 : Update.Feat) (ix2 r k) := by
  obtain ⟨-, -, -, -, -, e0, e1, -⟩ := idx2 t
  show (V c main_v130 : Update.Feat) (((cfg2.win 3).blk t).view.emb (ix2 p k)) = _
  refine congrArg (V c main_v130 : Update.Feat) (funext fun a => Fin.ext ?_)
  match a with
  | ⟨0, _⟩ => show win2_3.index t (0 : Fin 2) * 5000 + 1 * p.val = r.val; omega
  | ⟨1, _⟩ => show win2_3.index t (1 : Fin 2) * 128 + 1 * k.val = k.val; omega

/-- The second weight matrix is given whole. -/
theorem wt2_2 (c : Dev nD) (t : Fin cfg2.N) (k q : Fin 128) :
    (iblk2 V c 4 t : Update.Wt) (ix2 k q) = (V c main_v154 : Update.Wt) (ix2 k q) := by
  obtain ⟨-, -, -, -, -, -, -, e0, e1, -⟩ := idx2 t
  show (V c main_v154 : Update.Wt) (((cfg2.win 4).blk t).view.emb (ix2 k q)) = _
  refine congrArg (V c main_v154 : Update.Wt) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The second bias is given whole. -/
theorem bias2_2 (c : Dev nD) (t : Fin cfg2.N) (q : Fin 128) :
    (iblk2 V c 5 t : Update.Bias) (ix1 q) = (V c main_v156 : Update.Bias) (ix1 q) := by
  obtain ⟨-, -, -, -, -, -, -, -, -, e0, -⟩ := idx2 t
  show (V c main_v156 : Update.Bias) (((cfg2.win 5).blk t).view.emb (ix1 q)) = _
  refine congrArg (V c main_v156 : Update.Bias) (funext fun a => Fin.ext ?_)
  match a with
  | ⟨0, _⟩ => show win2_5.index t (0 : Fin 1) * 128 + 1 * q.val = q.val; omega

/-! ## What a point writes back -/

/-- Point `t` writes back the update's rows `5000 t … 5000 t + 4999`. -/
theorem flushed2 (c : Dev nD) (t : Fin cfg2.N) :
    (dat2 (F := Ideal) V c).flushed 6 t = ((cfg2.win 6).blk t).view.read (Elt Ideal)
      (Update.two true (V c main_v112) (V c main_v150) (V c main_v152) (V c main_v130) (V c main_v154) (V c main_v156)) := by
  show (cfg2.win 6).cut (grid2.coords t) ((dat2 V c).after 6 t) = _
  rw [after2_6]
  unfold out2_6
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg2.N = 20 := N_2
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, -, -, -, -, -, e0, e1⟩ := idx2 t
  have hout : ((cfg2.win 6).blk t).view.emb (ix2 p q) = (ix2 r q : S100000x128.Idx) := funext fun a => Fin.ext (by
    match a with
    | ⟨0, _⟩ => show win2_6.index t (0 : Fin 2) * 5000 + 1 * p.val = r.val; omega
    | ⟨1, _⟩ => show win2_6.index t (1 : Fin 2) * 128 + 1 * q.val = q.val; omega)
  show k2_pay1 (iblk2 V c 0 t) (iblk2 V c 3 t) (iblk2 V c 1 t) (iblk2 V c 4 t) (iblk2 V c 2 t) (iblk2 V c 5 t) (ix2 p q)
    = Update.two true (V c main_v112) (V c main_v150) (V c main_v152) (V c main_v130) (V c main_v154) (V c main_v156) (((cfg2.win 6).blk t).view.emb (ix2 p q))
  rw [hout]
  refine (Tile.tile2 (iblk2 V c 0 t) (iblk2 V c 3 t) (iblk2 V c 1 t) (iblk2 V c 4 t) (iblk2 V c 2 t) (iblk2 V c 5 t) p q).trans ?_
  exact Rows.two_at true (V c main_v112) (V c main_v150) (V c main_v152) (V c main_v130) (V c main_v154) (V c main_v156)
    (iblk2 V c 0 t) (iblk2 V c 1 t) (iblk2 V c 2 t) (iblk2 V c 3 t) (iblk2 V c 4 t) (iblk2 V c 5 t) r p q
    (fun k => agg2_1 V c t p k r hr) (fun k => wt2_1 V c t k q) (bias2_1 V c t q)
    (fun k => agg2_2 V c t p k r hr) (fun k => wt2_2 V c t k q) (bias2_2 V c t q)

/-! ## The blocks cover the array -/

/-- An entry of the result lies in point `t`'s block iff each coordinate lies in the block's range on its axis. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v157).slice (win2_6.rect t)).set ↔ _
  rw [View.set_slice_whole, Rect.mem_set_unit]
  exact Iff.rfl

/-- Row `r` lies in the block of point `r / 5000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := idx2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-! ## The result array -/

/-- After the region the result array holds the two-relation update of the arrays the region found. -/
theorem final2 (c : Dev nD) :
    (dat2 (F := Ideal) V c).arrAt 6 cfg2.N
      = Update.two true (V c main_v112) (V c main_v150) (V c main_v152) (V c main_v130) (V c main_v154) (V c main_v156) :=
  (dat2 (F := Ideal) V c).arrAt_eq_of_cover 6 _ (fun t _ => flushed2 V c t) cover2

end Cert.KernelIdeal.RegionValue

end
-- ==== Proof.Region3.lean ====
/-
  Region 3: a one-relation update, tiled over 20 blocks of 5000 rows, read as one function of the arrays
  the region finds on entry.

  Grid point `t` is given rows `5000 t … 5000 t + 4999` of the aggregate and the whole weight matrix and bias,
  and writes back rows `5000 t … 5000 t + 4999` of the result.  What it writes is the update's restriction to
  those rows, and the 20 blocks cover every row (row `r` lies in block `r / 5000`), so the result array ends
  holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregate's and the result's blocks move down the rows with the
    point, the weights' and the bias's stay at the origin. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-! ## The blocks a point is given -/

/-- Row `p` of the aggregate's block at point `t` is row `5000 t + p` of the aggregate. -/
theorem agg3 (c : Dev nD) (t : Fin cfg3.N) (p : Fin 5000) (k : Fin 128) (r : Fin 100000) (hr : r.val = t.val * 5000 + p.val) :
    (iblk3 V c 0 t : Rows.Tile) (ix2 p k) = (V c main_v148 : Update.Feat) (ix2 r k) := by
  obtain ⟨e0, e1, -⟩ := idx3 t
  show (V c main_v148 : Update.Feat) (((cfg3.win 0).blk t).view.emb (ix2 p k)) = _
  refine congrArg (V c main_v148 : Update.Feat) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The weight matrix is given whole. -/
theorem wt3 (c : Dev nD) (t : Fin cfg3.N) (k q : Fin 128) :
    (iblk3 V c 1 t : Update.Wt) (ix2 k q) = (V c main_v159 : Update.Wt) (ix2 k q) := by
  obtain ⟨-, -, e0, e1, -⟩ := idx3 t
  show (V c main_v159 : Update.Wt) (((cfg3.win 1).blk t).view.emb (ix2 k q)) = _
  refine congrArg (V c main_v159 : Update.Wt) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The bias is given whole. -/
theorem bias3 (c : Dev nD) (t : Fin cfg3.N) (q : Fin 128) :
    (iblk3 V c 2 t : Update.Bias) (ix1 q) = (V c main_v161 : Update.Bias) (ix1 q) := by
  obtain ⟨-, -, -, -, e0, -⟩ := idx3 t
  show (V c main_v161 : Update.Bias) (((cfg3.win 2).blk t).view.emb (ix1 q)) = _
  refine congrArg (V c main_v161 : Update.Bias) (funext fun a => Fin.ext ?_)
  match a with
  | ⟨0, _⟩ => show win3_2.index t (0 : Fin 1) * 128 + 1 * q.val = q.val; omega

/-! ## What a point writes back -/

/-- Point `t` writes back the update's rows `5000 t … 5000 t + 4999`. -/
theorem flushed3 (c : Dev nD) (t : Fin cfg3.N) :
    (dat3 (F := Ideal) V c).flushed 3 t = ((cfg3.win 3).blk t).view.read (Elt Ideal)
      (Update.one true (V c main_v148) (V c main_v159) (V c main_v161)) := by
  show (cfg3.win 3).cut (grid3.coords t) ((dat3 V c).after 3 t) = _
  rw [after3_3]
  unfold out3_3
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg3.N = 20 := N_3
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, e0, e1⟩ := idx3 t
  have hout : ((cfg3.win 3).blk t).view.emb (ix2 p q) = (ix2 r q : S100000x128.Idx) := funext fun a => Fin.ext (by
    match a with
    | ⟨0, _⟩ => show win3_3.index t (0 : Fin 2) * 5000 + 1 * p.val = r.val; omega
    | ⟨1, _⟩ => show win3_3.index t (1 : Fin 2) * 128 + 1 * q.val = q.val; omega)
  show k3_pay1 (iblk3 V c 0 t) (iblk3 V c 1 t) (iblk3 V c 2 t) (ix2 p q)
    = Update.one true (V c main_v148) (V c main_v159) (V c main_v161) (((cfg3.win 3).blk t).view.emb (ix2 p q))
  rw [hout]
  refine (Tile.tile3 (iblk3 V c 0 t) (iblk3 V c 1 t) (iblk3 V c 2 t) p q).trans ?_
  exact Rows.one_at true (V c main_v148) (V c main_v159) (V c main_v161)
    (iblk3 V c 0 t) (iblk3 V c 1 t) (iblk3 V c 2 t) r p q
    (fun k => agg3 V c t p k r hr) (fun k => wt3 V c t k q) (bias3 V c t q)

/-! ## The blocks cover the array -/

/-- An entry of the result lies in point `t`'s block iff each coordinate lies in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v162).slice (win3_3.rect t)).set ↔ _
  rw [View.set_slice_whole, Rect.mem_set_unit]
  exact Iff.rfl

/-- Row `r` lies in the block of point `r / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, e0, e1⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-! ## The result array -/

/-- After the region the result array holds the one-relation update of the arrays the region found. -/
theorem final3 (c : Dev nD) :
    (dat3 (F := Ideal) V c).arrAt 3 cfg3.N = Update.one true (V c main_v148) (V c main_v159) (V c main_v161) :=
  (dat3 (F := Ideal) V c).arrAt_eq_of_cover 3 _ (fun t _ => flushed3 V c t) cover3

end Cert.KernelIdeal.RegionValue

end
-- ==== Proof.Region4.lean ====
/-
  Region 4: a two-relation update, tiled over 20 blocks of 5000 rows, read as one function of the arrays
  the region finds on entry.

  Grid point `t` is given rows `5000 t … 5000 t + 4999` of each aggregate and the whole of each weight matrix
  and bias, and writes back rows `5000 t … 5000 t + 4999` of the result.  What it writes is the update's
  restriction to those rows, and the 20 blocks cover every row (row `r` lies in block `r / 5000`), so the
  result array ends holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregates' and the result's blocks move down the rows with the
    point, the weights' and biases' stay at the origin. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-! ## The blocks a point is given -/

/-- Row `p` of the first aggregate's block at point `t` is row `5000 t + p` of the aggregate. -/
theorem agg4_1 (c : Dev nD) (t : Fin cfg4.N) (p : Fin 5000) (k : Fin 128) (r : Fin 100000) (hr : r.val = t.val * 5000 + p.val) :
    (iblk4 V c 0 t : Rows.Tile) (ix2 p k) = (V c main_v180 : Update.Feat) (ix2 r k) := by
  obtain ⟨e0, e1, -⟩ := idx4 t
  show (V c main_v180 : Update.Feat) (((cfg4.win 0).blk t).view.emb (ix2 p k)) = _
  refine congrArg (V c main_v180 : Update.Feat) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The first weight matrix is given whole. -/
theorem wt4_1 (c : Dev nD) (t : Fin cfg4.N) (k q : Fin 128) :
    (iblk4 V c 1 t : Update.Wt) (ix2 k q) = (V c main_v218 : Update.Wt) (ix2 k q) := by
  obtain ⟨-, -, e0, e1, -⟩ := idx4 t
  show (V c main_v218 : Update.Wt) (((cfg4.win 1).blk t).view.emb (ix2 k q)) = _
  refine congrArg (V c main_v218 : Update.Wt) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The first bias is given whole. -/
theorem bias4_1 (c : Dev nD) (t : Fin cfg4.N) (q : Fin 128) :
    (iblk4 V c 2 t : Update.Bias) (ix1 q) = (V c main_v220 : Update.Bias) (ix1 q) := by
  obtain ⟨-, -, -, -, e0, -⟩ := idx4 t
  show (V c main_v220 : Update.Bias) (((cfg4.win 2).blk t).view.emb (ix1 q)) = _
  refine congrArg (V c main_v220 : Update.Bias) (funext fun a => Fin.ext ?_)
  match a with
  | ⟨0, _⟩ => show win4_2.index t (0 : Fin 1) * 128 + 1 * q.val = q.val; omega

/-- Row `p` of the second aggregate's block at point `t` is row `5000 t + p` of the aggregate. -/
theorem agg4_2 (c : Dev nD) (t : Fin cfg4.N) (p : Fin 5000) (k : Fin 128) (r : Fin 100000) (hr : r.val = t.val * 5000 + p.val) :
    (iblk4 V c 3 t : Rows.Tile) (ix2 p k) = (V c main_v198 : Update.Feat) (ix2 r k) := by
  obtain ⟨-, -, -, -, -, e0, e1, -⟩ := idx4 t
  show (V c main_v198 : Update.Feat) (((cfg4.win 3).blk t).view.emb (ix2 p k)) = _
  refine congrArg (V c main_v198 : Update.Feat) (funext fun a => Fin.ext ?_)
  match a with
  | ⟨0, _⟩ => show win4_3.index t (0 : Fin 2) * 5000 + 1 * p.val = r.val; omega
  | ⟨1, _⟩ => show win4_3.index t (1 : Fin 2) * 128 + 1 * k.val = k.val; omega

/-- The second weight matrix is given whole. -/
theorem wt4_2 (c : Dev nD) (t : Fin cfg4.N) (k q : Fin 128) :
    (iblk4 V c 4 t : Update.Wt) (ix2 k q) = (V c main_v222 : Update.Wt) (ix2 k q) := by
  obtain ⟨-, -, -, -, -, -, -, e0, e1, -⟩ := idx4 t
  show (V c main_v222 : Update.Wt) (((cfg4.win 4).blk t).view.emb (ix2 k q)) = _
  refine congrArg (V c main_v222 : Update.Wt) (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- The second bias is given whole. -/
theorem bias4_2 (c : Dev nD) (t : Fin cfg4.N) (q : Fin 128) :
    (iblk4 V c 5 t : Update.Bias) (ix1 q) = (V c main_v224 : Update.Bias) (ix1 q) := by
  obtain ⟨-, -, -, -, -, -, -, -, -, e0, -⟩ := idx4 t
  show (V c main_v224 : Update.Bias) (((cfg4.win 5).blk t).view.emb (ix1 q)) = _
  refine congrArg (V c main_v224 : Update.Bias) (funext fun a => Fin.ext ?_)
  match a with
  | ⟨0, _⟩ => show win4_5.index t (0 : Fin 1) * 128 + 1 * q.val = q.val; omega

/-! ## What a point writes back -/

/-- Point `t` writes back the update's rows `5000 t … 5000 t + 4999`. -/
theorem flushed4 (c : Dev nD) (t : Fin cfg4.N) :
    (dat4 (F := Ideal) V c).flushed 6 t = ((cfg4.win 6).blk t).view.read (Elt Ideal)
      (Update.two false (V c main_v180) (V c main_v218) (V c main_v220) (V c main_v198) (V c main_v222) (V c main_v224)) := by
  show (cfg4.win 6).cut (grid4.coords t) ((dat4 V c).after 6 t) = _
  rw [after4_6]
  unfold out4_6
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg4.N = 20 := N_4
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, -, -, -, -, -, e0, e1⟩ := idx4 t
  have hout : ((cfg4.win 6).blk t).view.emb (ix2 p q) = (ix2 r q : S100000x128.Idx) := funext fun a => Fin.ext (by
    match a with
    | ⟨0, _⟩ => show win4_6.index t (0 : Fin 2) * 5000 + 1 * p.val = r.val; omega
    | ⟨1, _⟩ => show win4_6.index t (1 : Fin 2) * 128 + 1 * q.val = q.val; omega)
  show k4_pay1 (iblk4 V c 0 t) (iblk4 V c 3 t) (iblk4 V c 1 t) (iblk4 V c 4 t) (iblk4 V c 2 t) (iblk4 V c 5 t) (ix2 p q)
    = Update.two false (V c main_v180) (V c main_v218) (V c main_v220) (V c main_v198) (V c main_v222) (V c main_v224) (((cfg4.win 6).blk t).view.emb (ix2 p q))
  rw [hout]
  refine (Tile.tile4 (iblk4 V c 0 t) (iblk4 V c 3 t) (iblk4 V c 1 t) (iblk4 V c 4 t) (iblk4 V c 2 t) (iblk4 V c 5 t) p q).trans ?_
  exact Rows.two_at false (V c main_v180) (V c main_v218) (V c main_v220) (V c main_v198) (V c main_v222) (V c main_v224)
    (iblk4 V c 0 t) (iblk4 V c 1 t) (iblk4 V c 2 t) (iblk4 V c 3 t) (iblk4 V c 4 t) (iblk4 V c 5 t) r p q
    (fun k => agg4_1 V c t p k r hr) (fun k => wt4_1 V c t k q) (bias4_1 V c t q)
    (fun k => agg4_2 V c t p k r hr) (fun k => wt4_2 V c t k q) (bias4_2 V c t q)

/-! ## The blocks cover the array -/

/-- An entry of the result lies in point `t`'s block iff each coordinate lies in the block's range on its axis. -/
theorem mem_blk4 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v225).slice (win4_6.rect t)).set ↔ _
  rw [View.set_slice_whole, Rect.mem_set_unit]
  exact Iff.rfl

/-- Row `r` lies in the block of point `r / 5000`. -/
theorem cover4 (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := idx4 t
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-! ## The result array -/

/-- After the region the result array holds the two-relation update of the arrays the region found. -/
theorem final4 (c : Dev nD) :
    (dat4 (F := Ideal) V c).arrAt 6 cfg4.N
      = Update.two false (V c main_v180) (V c main_v218) (V c main_v220) (V c main_v198) (V c main_v222) (V c main_v224) :=
  (dat4 (F := Ideal) V c).arrAt_eq_of_cover 6 _ (fun t _ => flushed4 V c t) cover4

end Cert.KernelIdeal.RegionValue

end
-- ==== Proof.Region5.lean ====
/-
  Region 5: a one-relation update, tiled over 20 blocks of 5000 rows, read as one function of the arrays
  the region finds on entry.

  Grid point `t` is given rows `5000 t … 5000 t + 4999` of the aggregate and the whole weight matrix and bias,
  and writes back rows `5000 t … 5000 t + 4999` of the result.  What it writes is the update's restriction to
  those rows, and the 20 blocks cover every row (row `r` lies in block `r / 5000`), so the result array ends
  holding the update of the whole arrays.
-/
import proofs.«173303_j47236050321804_1_alg».proof.Proof.Gen.KernelIdeal.Frame
import proofs.«173303_j47236050321804_1_alg».proof.Proof.Update
import proofs.«173303_j47236050321804_1_alg».proof.Proof.Rows
import proofs.«173303_j47236050321804_1_alg».proof.Proof.Tile
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices over the grid: the aggregate's and the result's blocks move down the rows with the
    point, the weights' and the bias's stay at the origin. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-! ## The blocks a point is given -/

/-- Row `p` of the aggregate's block at point `t` is row `5000 t + p` of the aggregate. -/
theorem agg5 (c : Dev nD) (t : Fin cfg5.N) (p : Fin 5000) (k : Fin 128) (r : Fin 100000) (hr : r.val = t.val * 5000 + p.val) :
    (iblk5 V c 0 t : Rows.Tile) (ix2 p k) = (V c main_v216 : Update.Feat) (ix2 r k) := by
  obtain ⟨e0, e1, -⟩ := idx5 t
  show (V c main_v216 : Update.Feat) (((cfg5.win 0).blk t).view.emb (ix2 p k)) = _
  refine congrArg (V c main_v216 : Update.Feat) (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The weight matrix is given whole. -/
theorem wt5 (c : Dev nD) (t : Fin cfg5.N) (k q : Fin 128) :
    (iblk5 V c 1 t : Update.Wt) (ix2 k q) = (V c main_v227 : Update.Wt) (ix2 k q) := by
  obtain ⟨-, -, e0, e1, -⟩ := idx5 t
  show (V c main_v227 : Update.Wt) (((cfg5.win 1).blk t).view.emb (ix2 k q)) = _
  refine congrArg (V c main_v227 : Update.Wt) (funext fun a => Fin.ext ?_)
  match a with
  | ⟨0, _⟩ => show win5_1.index t (0 : Fin 2) * 128 + 1 * k.val = k.val; omega
  | ⟨1, _⟩ => show win5_1.index t (1 : Fin 2) * 128 + 1 * q.val = q.val; omega

/-- The bias is given whole. -/
theorem bias5 (c : Dev nD) (t : Fin cfg5.N) (q : Fin 128) :
    (iblk5 V c 2 t : Update.Bias) (ix1 q) = (V c main_v229 : Update.Bias) (ix1 q) := by
  obtain ⟨-, -, -, -, e0, -⟩ := idx5 t
  show (V c main_v229 : Update.Bias) (((cfg5.win 2).blk t).view.emb (ix1 q)) = _
  refine congrArg (V c main_v229 : Update.Bias) (funext fun a => Fin.ext ?_)
  match a with
  | ⟨0, _⟩ => show win5_2.index t (0 : Fin 1) * 128 + 1 * q.val = q.val; omega

/-! ## What a point writes back -/

/-- Point `t` writes back the update's rows `5000 t … 5000 t + 4999`. -/
theorem flushed5 (c : Dev nD) (t : Fin cfg5.N) :
    (dat5 (F := Ideal) V c).flushed 3 t = ((cfg5.win 3).blk t).view.read (Elt Ideal)
      (Update.one false (V c main_v216) (V c main_v227) (V c main_v229)) := by
  show (cfg5.win 3).cut (grid5.coords t) ((dat5 V c).after 3 t) = _
  rw [after5_3]
  unfold out5_3
  rw [View.canon_unit_zero Rows.origin2]
  simp only [View.ld_unit_zero (S := S5000x128) Rows.origin2, View.ld_unit_zero (S := S128x128) Rows.origin2, View.ld_unit_zero (S := S128) Rows.origin1]
  funext j
  obtain ⟨p, q, rfl⟩ : ∃ (p : Fin 5000) (q : Fin 128), j = ix2 p q := ⟨j 0, j 1, eq_ix2 j⟩
  have hN : cfg5.N = 20 := N_5
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  obtain ⟨-, -, -, -, -, e0, e1⟩ := idx5 t
  have hout : ((cfg5.win 3).blk t).view.emb (ix2 p q) = (ix2 r q : S100000x128.Idx) := funext fun a => Fin.ext (by
    match a with
    | ⟨0, _⟩ => show win5_3.index t (0 : Fin 2) * 5000 + 1 * p.val = r.val; omega
    | ⟨1, _⟩ => show win5_3.index t (1 : Fin 2) * 128 + 1 * q.val = q.val; omega)
  show k5_pay1 (iblk5 V c 0 t) (iblk5 V c 1 t) (iblk5 V c 2 t) (ix2 p q)
    = Update.one false (V c main_v216) (V c main_v227) (V c main_v229) (((cfg5.win 3).blk t).view.emb (ix2 p q))
  rw [hout]
  refine (Tile.tile5 (iblk5 V c 0 t) (iblk5 V c 1 t) (iblk5 V c 2 t) p q).trans ?_
  exact Rows.one_at false (V c main_v216) (V c main_v227) (V c main_v229)
    (iblk5 V c 0 t) (iblk5 V c 1 t) (iblk5 V c 2 t) r p q
    (fun k => agg5 V c t p k r hr) (fun k => wt5 V c t k q) (bias5 V c t q)

/-! ## The blocks cover the array -/

/-- An entry of the result lies in point `t`'s block iff each coordinate lies in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v230).slice (win5_3.rect t)).set ↔ _
  rw [View.set_slice_whole, Rect.mem_set_unit]
  exact Iff.rfl

/-- Row `r` lies in the block of point `r / 5000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, e0, e1⟩ := idx5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-! ## The result array -/

/-- After the region the result array holds the one-relation update of the arrays the region found. -/
theorem final5 (c : Dev nD) :
    (dat5 (F := Ideal) V c).arrAt 3 cfg5.N = Update.one false (V c main_v216) (V c main_v227) (V c main_v229) :=
  (dat5 (F := Ideal) V c).arrAt_eq_of_cover 3 _ (fun t _ => flushed5 V c t) cover5

end Cert.KernelIdeal.RegionValue

end
-- ==== Proof.RefSites.lean ====
/-
  The reference's six update sites, each read as one update of the graph network.

  Per layer the reference forms, for the drug nodes, the sum of two affine images
  `(agg₁ · W₀ + b₀) + (agg₂ · W₁ + b₁)` and, for the protein nodes, one affine image `agg · W₂ + b₂`, each bias
  being row `k` of that layer's bias table spread over all 100000 rows; after layers 1 and 2 it takes the positive
  part (the maximum with a zero array), after layer 3 it does not.  Read at an index `(r, j)`, a product is the sum
  over the 128 channels of row `r` of the aggregate against column `j` of the weight matrix, and the spread bias is
  entry `j` of the bias vector.  That is `Cert.Update.two` (through `two_eq_sum`, the reference adding the two
  finished affine images) or `Cert.Update.one` of the stages that feed the site.
-/
import proofs.«173303_j47236050321804_1_alg».proof.Proof.RefReadP
import proofs.«173303_j47236050321804_1_alg».proof.Proof.Update
import Idealize.ShloMosaic.Lib.ValueIdx
import Idealize.ShloMosaic.PureOps.Ideal.Laws

noncomputable section

namespace Cert.ReferenceIdeal.UpdateSites

open Cert.ReferenceIdeal Cert.ReferenceIdeal.Gen Cert.ReferenceIdeal.ReadP Idealize.ShloMosaic Idealize.ShloMosaic.ValueIdx

/-- Layer 1, drug nodes: the positive part of the two affine images (drug→drug and protein→drug aggregates), summed. -/
theorem drug1 (x0 x1 : (⟨S100000x128, .f32⟩ : BufTy).Contents (Elt Ideal)) (x2 x3 x4 x5 : (⟨S800000, .i32⟩ : BufTy).Contents (Elt Ideal)) (x8 : (⟨S3x128x128, .f32⟩ : BufTy).Contents (Elt Ideal)) (x9 : (⟨S3x128, .f32⟩ : BufTy).Contents (Elt Ideal)) :
    val_main_v106 (F := Ideal) x0 x1 x2 x3 x4 x5 x8 x9
      = Cert.Update.two true (val_main_v30 (F := Ideal) x0 x2 x3) (val_main_v1 (F := Ideal) x8) (val_main_v3 (F := Ideal) x9)
          (val_main_v65 (F := Ideal) x1 x4 x5) (val_main_v36 (F := Ideal) x8) (val_main_v38 (F := Ideal) x9) := by
  funext i
  obtain ⟨r, j, rfl⟩ : ∃ (r : Fin 100000) (j : Fin 128), i = ix2 r j := ⟨i 0, i 1, eq_ix2 i⟩
  have el1 : ∀ k : Fin 128, lidx_main_v31 (ix2 r j) k = ix2 r k := fun k => funext fun a => Fin.ext (by match a with | ⟨0, _⟩ => rfl | ⟨1, _⟩ => rfl)
  have er1 : ∀ k : Fin 128, ridx_main_v31 (ix2 r j) k = ix2 k j := fun k => funext fun a => Fin.ext (by match a with | ⟨0, _⟩ => rfl | ⟨1, _⟩ => rfl)
  have el2 : ∀ k : Fin 128, lidx_main_v66 (ix2 r j) k = ix2 r k := fun k => funext fun a => Fin.ext (by match a with | ⟨0, _⟩ => rfl | ⟨1, _⟩ => rfl)
  have er2 : ∀ k : Fin 128, ridx_main_v66 (ix2 r j) k = ix2 k j := fun k => funext fun a => Fin.ext (by match a with | ⟨0, _⟩ => rfl | ⟨1, _⟩ => rfl)
  have eb1 : idx_main_v32 (idx_main_v33 (ix2 r j)) = ix1 j := funext fun a => Fin.ext (by match a with | ⟨0, _⟩ => rfl)
  have eb2 : idx_main_v67 (idx_main_v68 (ix2 r j)) = ix1 j := funext fun a => Fin.ext (by match a with | ⟨0, _⟩ => rfl)
  rw [val_main_v106_apply, val_main_v105_apply, val_main_v34_apply, val_main_v69_apply, val_main_v31_apply, val_main_v66_apply, val_main_v33_apply, val_main_v32_apply, val_main_v68_apply, val_main_v67_apply, val_main_call6_v0_apply, val_main_call6_cst_apply, Cert.Update.two_eq_sum]
  simp only [el1, er1, el2, er2, eb1, eb2, Ideal.maximumf_def, Ideal.addf_def, Ideal.ofBits_def, Ideal.ofBits_zero_f32]
  unfold Cert.Update.act Cert.Update.dot
  simp only [if_true]

/-- Layer 1, protein nodes: the positive part of the affine image of the protein→protein aggregate. -/
theorem prot1 (x1 : (⟨S100000x128, .f32⟩ : BufTy).Contents (Elt Ideal)) (x6 x7 : (⟨S800000, .i32⟩ : BufTy).Contents (Elt Ideal)) (x8 : (⟨S3x128x128, .f32⟩ : BufTy).Contents (Elt Ideal)) (x9 : (⟨S3x128, .f32⟩ : BufTy).Contents (Elt Ideal)) :
    val_main_v107 (F := Ideal) x1 x6 x7 x8 x9
      = Cert.Update.one true (val_main_v100 (F := Ideal) x1 x6 x7) (val_main_v71 (F := Ideal) x8) (val_main_v73 (F := Ideal) x9) := by
  funext i
  obtain ⟨r, j, rfl⟩ : ∃ (r : Fin 100000) (j : Fin 128), i = ix2 r j := ⟨i 0, i 1, eq_ix2 i⟩
  have el1 : ∀ k : Fin 128, lidx_main_v101 (ix2 r j) k = ix2 r k := fun k => funext fun a => Fin.ext (by match a with | ⟨0, _⟩ => rfl | ⟨1, _⟩ => rfl)
  have er1 : ∀ k : Fin 128, ridx_main_v101 (ix2 r j) k = ix2 k j := fun k => funext fun a => Fin.ext (by match a with | ⟨0, _⟩ => rfl | ⟨1, _⟩ => rfl)
  have eb1 : idx_main_v102 (idx_main_v103 (ix2 r j)) = ix1 j := funext fun a => Fin.ext (by match a with | ⟨0, _⟩ => rfl)
  rw [val_main_v107_apply, val_main_v104_apply, val_main_v101_apply, val_main_v103_apply, val_main_v102_apply, val_main_call7_v0_apply, val_main_call7_cst_apply]
  simp only [el1, er1, eb1, Ideal.maximumf_def, Ideal.addf_def, Ideal.ofBits_def, Ideal.ofBits_zero_f32]
  unfold Cert.Update.one Cert.Update.act Cert.Update.dot
  simp only [if_true]

/-- Layer 2, drug nodes: as layer 1, on layer 1's features and the second layer's weights. -/
theorem drug2 (x0 x1 : (⟨S100000x128, .f32⟩ : BufTy).Contents (Elt Ideal)) (x2 x3 x4 x5 x6 x7 : (⟨S800000, .i32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) :
    val_main_v214 (F := Ideal) x0 x1 x2 x3 x4 x5 x6 x7 x8 x9 x10 x11
      = Cert.Update.two true (val_main_v138 (F := Ideal) x0 x1 x2 x3 x4 x5 x8 x9) (val_main_v109 (F := Ideal) x10) (val_main_v111 (F := Ideal) x11)
          (val_main_v173 (F := Ideal) x1 x4 x5 x6 x7 x8 x9) (val_main_v144 (F := Ideal) x10) (val_main_v146 (F := Ideal) x11) := by
  funext i
  obtain ⟨r, j, rfl⟩ : ∃ (r : Fin 100000) (j : Fin 128), i = ix2 r j := ⟨i 0, i 1, eq_ix2 i⟩
  have el1 : ∀ k : Fin 128, lidx_main_v139 (ix2 r j) k = ix2 r k := fun k => funext fun a => Fin.ext (by match a with | ⟨0, _⟩ => rfl | ⟨1, _⟩ => rfl)
  have er1 : ∀ k : Fin 128, ridx_main_v139 (ix2 r j) k = ix2 k j := fun k => funext fun a => Fin.ext (by match a with | ⟨0, _⟩ => rfl | ⟨1, _⟩ => rfl)
  have el2 : ∀ k : Fin 128, lidx_main_v174 (ix2 r j) k = ix2 r k := fun k => funext fun a => Fin.ext (by match a with | ⟨0, _⟩ => rfl | ⟨1, _⟩ => rfl)
  have er2 : ∀ k : Fin 128, ridx_main_v174 (ix2 r j) k = ix2 k j := fun k => funext fun a => Fin.ext (by match a with | ⟨0, _⟩ => rfl | ⟨1, _⟩ => rfl)
  have eb1 : idx_main_v140 (idx_main_v141 (ix2 r j)) = ix1 j := funext fun a => Fin.ext (by match a with | ⟨0, _⟩ => rfl)
  have eb2 : idx_main_v175 (idx_main_v176 (ix2 r j)) = ix1 j := funext fun a => Fin.ext (by match a with | ⟨0, _⟩ => rfl)
  rw [val_main_v214_apply, val_main_v213_apply, val_main_v142_apply, val_main_v177_apply, val_main_v139_apply, val_main_v174_apply, val_main_v141_apply, val_main_v140_apply, val_main_v176_apply, val_main_v175_apply, val_main_call14_v0_apply, val_main_call14_cst_apply, Cert.Update.two_eq_sum]
  simp only [el1, er1, el2, er2, eb1, eb2, Ideal.maximumf_def, Ideal.addf_def, Ideal.ofBits_def, Ideal.ofBits_zero_f32]
  unfold Cert.Update.act Cert.Update.dot
  simp only [if_true]

/-- Layer 2, protein nodes. -/
theorem prot2 (x1 : (⟨S100000x128, .f32⟩ : BufTy).Contents (Elt Ideal)) (x6 x7 : (⟨S800000, .i32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) :
    val_main_v215 (F := Ideal) x1 x6 x7 x8 x9 x10 x11
      = Cert.Update.one true (val_main_v208 (F := Ideal) x1 x6 x7 x8 x9) (val_main_v179 (F := Ideal) x10) (val_main_v181 (F := Ideal) x11) := by
  funext i
  obtain ⟨r, j, rfl⟩ : ∃ (r : Fin 100000) (j : Fin 128), i = ix2 r j := ⟨i 0, i 1, eq_ix2 i⟩
  have el1 : ∀ k : Fin 128, lidx_main_v209 (ix2 r j) k = ix2 r k := fun k => funext fun a => Fin.ext (by match a with | ⟨0, _⟩ => rfl | ⟨1, _⟩ => rfl)
  have er1 : ∀ k : Fin 128, ridx_main_v209 (ix2 r j) k = ix2 k j := fun k => funext fun a => Fin.ext (by match a with | ⟨0, _⟩ => rfl | ⟨1, _⟩ => rfl)
  have eb1 : idx_main_v210 (idx_main_v211 (ix2 r j)) = ix1 j := funext fun a => Fin.ext (by match a with | ⟨0, _⟩ => rfl)
  rw [val_main_v215_apply, val_main_v212_apply, val_main_v209_apply, val_main_v211_apply, val_main_v210_apply, val_main_call15_v0_apply, val_main_call15_cst_apply]
  simp only [el1, er1, eb1, Ideal.maximumf_def, Ideal.addf_def, Ideal.ofBits_def, Ideal.ofBits_zero_f32]
  unfold Cert.Update.one Cert.Update.act Cert.Update.dot
  simp only [if_true]

/-- Layer 3, drug nodes: the sum of the two affine images, with no positive part after the last layer. -/
theorem drug3 (x0 x1 : (⟨S100000x128, .f32⟩ : BufTy).Contents (Elt Ideal)) (x2 x3 x4 x5 x6 x7 : (⟨S800000, .i32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) :
    val_main_v321 (F := Ideal) x0 x1 x2 x3 x4 x5 x6 x7 x8 x9 x10 x11 x12 x13
      = Cert.Update.two false (val_main_v246 (F := Ideal) x0 x1 x2 x3 x4 x5 x6 x7 x8 x9 x10 x11) (val_main_v217 (F := Ideal) x12) (val_main_v219 (F := Ideal) x13)
          (val_main_v281 (F := Ideal) x1 x4 x5 x6 x7 x8 x9 x10 x11) (val_main_v252 (F := Ideal) x12) (val_main_v254 (F := Ideal) x13) := by
  funext i
  obtain ⟨r, j, rfl⟩ : ∃ (r : Fin 100000) (j : Fin 128), i = ix2 r j := ⟨i 0, i 1, eq_ix2 i⟩
  have el1 : ∀ k : Fin 128, lidx_main_v247 (ix2 r j) k = ix2 r k := fun k => funext fun a => Fin.ext (by match a with | ⟨0, _⟩ => rfl | ⟨1, _⟩ => rfl)
  have er1 : ∀ k : Fin 128, ridx_main_v247 (ix2 r j) k = ix2 k j := fun k => funext fun a => Fin.ext (by match a with | ⟨0, _⟩ => rfl | ⟨1, _⟩ => rfl)
  have el2 : ∀ k : Fin 128, lidx_main_v282 (ix2 r j) k = ix2 r k := fun k => funext fun a => Fin.ext (by match a with | ⟨0, _⟩ => rfl | ⟨1, _⟩ => rfl)
  have er2 : ∀ k : Fin 128, ridx_main_v282 (ix2 r j) k = ix2 k j := fun k => funext fun a => Fin.ext (by match a with | ⟨0, _⟩ => rfl | ⟨1, _⟩ => rfl)
  have eb1 : idx_main_v248 (idx_main_v249 (ix2 r j)) = ix1 j := funext fun a => Fin.ext (by match a with | ⟨0, _⟩ => rfl)
  have eb2 : idx_main_v283 (idx_main_v284 (ix2 r j)) = ix1 j := funext fun a => Fin.ext (by match a with | ⟨0, _⟩ => rfl)
  rw [val_main_v321_apply, val_main_v250_apply, val_main_v285_apply, val_main_v247_apply, val_main_v282_apply, val_main_v249_apply, val_main_v248_apply, val_main_v284_apply, val_main_v283_apply, Cert.Update.two_eq_sum]
  simp only [el1, er1, el2, er2, eb1, eb2, Ideal.addf_def]
  unfold Cert.Update.act Cert.Update.dot
  simp only [Bool.false_eq_true, if_false]

/-- Layer 3, protein nodes: the affine image alone. -/
theorem prot3 (x1 : (⟨S100000x128, .f32⟩ : BufTy).Contents (Elt Ideal)) (x6 x7 : (⟨S800000, .i32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) :
    val_main_v320 (F := Ideal) x1 x6 x7 x8 x9 x10 x11 x12 x13
      = Cert.Update.one false (val_main_v316 (F := Ideal) x1 x6 x7 x8 x9 x10 x11) (val_main_v287 (F := Ideal) x12) (val_main_v289 (F := Ideal) x13) := by
  funext i
  obtain ⟨r, j, rfl⟩ : ∃ (r : Fin 100000) (j : Fin 128), i = ix2 r j := ⟨i 0, i 1, eq_ix2 i⟩
  have el1 : ∀ k : Fin 128, lidx_main_v317 (ix2 r j) k = ix2 r k := fun k => funext fun a => Fin.ext (by match a with | ⟨0, _⟩ => rfl | ⟨1, _⟩ => rfl)
  have er1 : ∀ k : Fin 128, ridx_main_v317 (ix2 r j) k = ix2 k j := fun k => funext fun a => Fin.ext (by match a with | ⟨0, _⟩ => rfl | ⟨1, _⟩ => rfl)
  have eb1 : idx_main_v318 (idx_main_v319 (ix2 r j)) = ix1 j := funext fun a => Fin.ext (by match a with | ⟨0, _⟩ => rfl)
  rw [val_main_v320_apply, val_main_v317_apply, val_main_v319_apply, val_main_v318_apply]
  simp only [el1, er1, eb1, Ideal.addf_def]
  unfold Cert.Update.one Cert.Update.act Cert.Update.dot
  simp only [Bool.false_eq_true, if_false]

end Cert.ReferenceIdeal.UpdateSites

end
-- ==== Proof.Chain.lean ====
/-
  The chain of the six updates: what each region leaves in its output array, and the two results.

  A region's output array, after its twenty grid points have written their row blocks back, is the update
  (`Cert.Update.two` for the drug nodes, `Cert.Update.one` for the protein nodes) of the arrays it found on entry.
  Those arrays are the reference's stages (the aggregates, the layer's weight and bias slices), and the reference's
  own update of those stages — one matrix product per relation, the bias broadcast and added, the two relations
  added, the positive part where the layer has one — is the same function of them.  So each output array is the
  reference's stage after the update, layer by layer: the features after layer 1 feed layer 2's aggregates on both
  sides, those after layer 2 feed layer 3's.  The last two regions write the two results; no later operation
  touches the drug features, which are read at the end of the fold across the last protein update.
-/
import proofs.«173303_j47236050321804_1_alg».proof.Proof.In0
import proofs.«173303_j47236050321804_1_alg».proof.Proof.In1
import proofs.«173303_j47236050321804_1_alg».proof.Proof.In2
import proofs.«173303_j47236050321804_1_alg».proof.Proof.In3
import proofs.«173303_j47236050321804_1_alg».proof.Proof.In4
import proofs.«173303_j47236050321804_1_alg».proof.Proof.In5
import proofs.«173303_j47236050321804_1_alg».proof.Proof.Region0
import proofs.«173303_j47236050321804_1_alg».proof.Proof.Region1
import proofs.«173303_j47236050321804_1_alg».proof.Proof.Region2
import proofs.«173303_j47236050321804_1_alg».proof.Proof.Region3
import proofs.«173303_j47236050321804_1_alg».proof.Proof.Region4
import proofs.«173303_j47236050321804_1_alg».proof.Proof.Region5
import proofs.«173303_j47236050321804_1_alg».proof.Proof.RefSites

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Layer 1, drug nodes: the region's output array is the reference's drug features after layer 1. -/
theorem out0 (c : Dev nD) :
    W14 m ρ c (Proc.devRef .tc main_v89) = Cert.ReferenceIdeal.ReadP.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  refine (W14_arr m ρ c 6).trans ?_
  rw [Cert.KernelIdeal.RegionValue.final0 (V13 m ρ) c, in0_a1 m ρ c, in0_w1 m ρ c, in0_b1 m ρ c, in0_a2 m ρ c, in0_w2 m ρ c, in0_b2 m ρ c]
  exact (Cert.ReferenceIdeal.UpdateSites.drug1 ..).symm

/-- Layer 1, protein nodes: the region's output array is the reference's protein features after layer 1. -/
theorem out1 (c : Dev nD) :
    W16 m ρ c (Proc.devRef .tc main_v94) = Cert.ReferenceIdeal.ReadP.val_main_v107 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  refine (W16_arr m ρ c 3).trans ?_
  rw [Cert.KernelIdeal.RegionValue.final1 (V15 m ρ) c, in1_a m ρ c, in1_w m ρ c, in1_b m ρ c]
  exact (Cert.ReferenceIdeal.UpdateSites.prot1 ..).symm

/-- Layer 2, drug nodes: the region's output array is the reference's drug features after layer 2. -/
theorem out2 (c : Dev nD) :
    W18 m ρ c (Proc.devRef .tc main_v157) = Cert.ReferenceIdeal.ReadP.val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W18_arr m ρ c 6).trans ?_
  rw [Cert.KernelIdeal.RegionValue.final2 (V17 m ρ) c, in2_a1 m ρ c (out0 m ρ c) (out1 m ρ c), in2_w1 m ρ c, in2_b1 m ρ c, in2_a2 m ρ c (out0 m ρ c) (out1 m ρ c), in2_w2 m ρ c, in2_b2 m ρ c]
  exact (Cert.ReferenceIdeal.UpdateSites.drug2 ..).symm

/-- Layer 2, protein nodes: the region's output array is the reference's protein features after layer 2. -/
theorem out3 (c : Dev nD) :
    W20 m ρ c (Proc.devRef .tc main_v162) = Cert.ReferenceIdeal.ReadP.val_main_v215 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W20_arr m ρ c 3).trans ?_
  rw [Cert.KernelIdeal.RegionValue.final3 (V19 m ρ) c, in3_a m ρ c (out0 m ρ c) (out1 m ρ c), in3_w m ρ c, in3_b m ρ c]
  exact (Cert.ReferenceIdeal.UpdateSites.prot2 ..).symm

/-- Layer 3, drug nodes: the region's output array is the reference's drug features after layer 3. -/
theorem out4 (c : Dev nD) :
    W22 m ρ c (Proc.devRef .tc main_v225) = Cert.ReferenceIdeal.ReadP.val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W22_arr m ρ c 6).trans ?_
  rw [Cert.KernelIdeal.RegionValue.final4 (V21 m ρ) c, in4_a1 m ρ c (out2 m ρ c) (out3 m ρ c), in4_w1 m ρ c, in4_b1 m ρ c, in4_a2 m ρ c (out2 m ρ c) (out3 m ρ c), in4_w2 m ρ c, in4_b2 m ρ c]
  exact (Cert.ReferenceIdeal.UpdateSites.drug3 ..).symm

/-- Layer 3, protein nodes: the region's output array is the reference's protein features after layer 3. -/
theorem out5 (c : Dev nD) :
    W24 m ρ c (Proc.devRef .tc main_v230) = Cert.ReferenceIdeal.ReadP.val_main_v320 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W24_arr m ρ c 3).trans ?_
  rw [Cert.KernelIdeal.RegionValue.final5 (V23 m ρ) c, in5_a m ρ c (out2 m ρ c) (out3 m ρ c), in5_w m ρ c, in5_b m ρ c]
  exact (Cert.ReferenceIdeal.UpdateSites.prot3 ..).symm

/-- The drug features at the end: written by the fifth region and untouched by the last stretch and the last region. -/
theorem drug_result (c : Dev nD) :
    W24 m ρ c (Proc.devRef .tc main_v225) = Cert.ReferenceIdeal.ReadP.val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine Eq.trans ?_ (out4 m ρ c)
  simp (disch := decide) only [V13, V15, V17, V19, V21, V23,
    W0, W1, W2, W3, W4, W5, W6, W7, W8, W9, W10, W11, W12, W13, W15, W17, W19, W21, W23,
    hostOps0, hostOps0_1, hostOps0_2, hostOps0_3, hostOps0_4, hostOps0_5, hostOps0_6, hostOps0_7, hostOps0_8,
    hostOps0_9, hostOps0_10, hostOps0_11, hostOps0_12, hostOps1, hostOps2, hostOps3, hostOps4, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Fold.W14_ne', Cert.KernelIdeal.Fold.W16_ne', Cert.KernelIdeal.Fold.W18_ne',
    Cert.KernelIdeal.Fold.W20_ne', Cert.KernelIdeal.Fold.W22_ne', Cert.KernelIdeal.Fold.W24_ne']

/-- The protein features at the end: written by the sixth region. -/
theorem prot_result (c : Dev nD) :
    W24 m ρ c (Proc.devRef .tc main_v230) = Cert.ReferenceIdeal.ReadP.val_main_v320 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  out5 m ρ c

end Cert.KernelIdeal.Stage

end
-- ==== Proof.lean ====
/-
  The kernel and its reference compute the same three-layer network over a graph of two node types.

  Per layer, three normalised neighbourhood aggregates (drug→drug, protein→drug, protein→protein) are formed by the
  same host operations in both programs: scale the source features by the inverse square root of the clamped
  out-degree, gather along the edges, add up at each destination, scale by the inverse square root of the clamped
  in-degree.  The kernel counts the degrees once, the reference in every layer: one term of the edge lists.
  The two programs differ only in how the aggregates are updated: the kernel in tiled regions, twenty blocks of
  5000 rows, each block's product with the whole weight matrix accumulated from zero, the bias added, the two
  relations of the drug nodes summed as `((a₁·w₁ + b₁) + a₂·w₂) + b₂`; the reference by one matrix product per
  relation, the bias broadcast and added, the relations' results added as `(a₁·w₁ + b₁) + (a₂·w₂ + b₂)`.  On the
  extended reals a sum over the contracted index does not depend on the tiling of the rows, the rounding to a
  narrower format on the way into the product is the identity, and addition is associative: both are the function
  `Cert.Update.two` (or `Cert.Update.one` for the protein nodes) of the same arrays, with the positive part after
  the first two layers.  No step needs the inputs to be finite.

  The frames of the two kernel programs are the generated ones; the reference's frame is its run with the results
  dropped; the idealization rewrote nothing, so there is nothing to preserve.
-/
import proofs.«173303_j47236050321804_1_alg».proof.Defs
import proofs.«173303_j47236050321804_1_alg».proof.Proof.Gen.Kernel
import proofs.«173303_j47236050321804_1_alg».proof.Proof.Gen.Kernel.Frame
import proofs.«173303_j47236050321804_1_alg».proof.Proof.Gen.KernelIdeal
import proofs.«173303_j47236050321804_1_alg».proof.Proof.Gen.KernelIdeal.Frame
import proofs.«173303_j47236050321804_1_alg».proof.Proof.Gen.ReferenceIdeal
import proofs.«173303_j47236050321804_1_alg».proof.Proof.Gen.Pre_finite_inputs
import proofs.«173303_j47236050321804_1_alg».proof.Proof.KernelRun
import proofs.«173303_j47236050321804_1_alg».proof.Proof.RefRunP
import proofs.«173303_j47236050321804_1_alg».proof.Proof.RefReadP
import proofs.«173303_j47236050321804_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The reference's run names each result by its fully expanded term of the arguments; that term is the last
    stage of the operation-by-operation reading (drug features). -/
theorem ref_drug (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v321 m c = Cert.ReferenceIdeal.ReadP.val_main_v321 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  unfold Cert.ReferenceIdeal.ValueP.res_main_v321; rfl

/-- The same for the protein features. -/
theorem ref_prot (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v320 m c = Cert.ReferenceIdeal.ReadP.val_main_v320 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  unfold Cert.ReferenceIdeal.ValueP.res_main_v320; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the drug features at the reference's last drug stage of the kernel's arguments, and the
    protein features at its last protein stage: the kernel by the chain of its regions, the reference by its run,
    the arguments agreeing. -/
theorem algebraic : Cert.algebraic_KernelIdeal_ReferenceIdeal := by
  intro m ρ m' ρ' _ hagree
  refine ⟨fun c => Cert.ReferenceIdeal.ReadP.val_main_v321 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.ReadP.val_main_v320 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Stage.drug_result m ρ c), (h c).2.1.trans (Cert.KernelIdeal.Stage.prot_result m ρ c), (h c).2.2⟩)
      (Cert.KernelIdeal.ValueRun.run (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [ref_drug m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · rw [ref_prot m' c, (hagree c).2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
